-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x2 : Shape := ⟨3, ![64, 100000, 2]⟩
abbrev S64x100000 : Shape := ⟨2, ![64, 100000]⟩
abbrev S_ : Shape := ⟨0, ![]⟩

class Facts : Prop where
  bcast_S_S64x100000x2 : S_.BroadcastsInDim S64x100000x2 (![] : Fin 0 → Fin S64x100000x2.rank)
  reducesTo_S64x100000x2_S_d0_1_2 : S64x100000x2.ReducesTo [0, 1, 2] S_
  h_S_ : 0 < S_.numel
  bcast_S_S64x100000 : S_.BroadcastsInDim S64x100000 (![] : Fin 0 → Fin S64x100000.rank)
  reducesTo_S64x100000_S_d0_1 : S64x100000.ReducesTo [0, 1] S_

variable [Facts]

def fn {F : FTy → Type} [FloatOps F] (main_arg0 : FVec F S64x100000x2 .f32) (main_arg1 : FVec F S64x100000x2 .f32) (main_arg2 : FVec F S64x100000 .f32) : IVec S_ 1 :=
  let main_v0 : FVec F S64x100000x2 .f32 := Host.absf main_arg0
  let main_cst : FVec F S_ .f32 := constant S_ .f32 0x7F800000#32
  let main_v1 : FVec F S64x100000x2 .f32 := broadcastInDim S64x100000x2 ![] bcast_S_S64x100000x2 main_cst
  let main_v2 : IVec S64x100000x2 1 := cmpf .olt main_v0 main_v1
  let main_c : IVec S_ 1 := constantI S_ 1 1#1
  let main_v3 : IVec S_ 1 := (fun x v => Host.reduce IntOp.andi x v reducesTo_S64x100000x2_S_d0_1_2 h_S_) main_v2 main_c
  let main_v4 : FVec F S64x100000x2 .f32 := Host.absf main_arg1
  let main_cst_0 : FVec F S_ .f32 := constant S_ .f32 0x7F800000#32
  let main_v5 : FVec F S64x100000x2 .f32 := broadcastInDim S64x100000x2 ![] bcast_S_S64x100000x2 main_cst_0
  let main_v6 : IVec S64x100000x2 1 := cmpf .olt main_v4 main_v5
  let main_c_1 : IVec S_ 1 := constantI S_ 1 1#1
  let main_v7 : IVec S_ 1 := (fun x v => Host.reduce IntOp.andi x v reducesTo_S64x100000x2_S_d0_1_2 h_S_) main_v6 main_c_1
  let main_v8 : IVec S_ 1 := andi main_v3 main_v7
  let main_v9 : FVec F S64x100000 .f32 := Host.absf main_arg2
  let main_cst_2 : FVec F S_ .f32 := constant S_ .f32 0x7F800000#32
  let main_v10 : FVec F S64x100000 .f32 := broadcastInDim S64x100000 ![] bcast_S_S64x100000 main_cst_2
  let main_v11 : IVec S64x100000 1 := cmpf .olt main_v9 main_v10
  let main_c_3 : IVec S_ 1 := constantI S_ 1 1#1
  let main_v12 : IVec S_ 1 := (fun x v => Host.reduce IntOp.andi x v reducesTo_S64x100000_S_d0_1 h_S_) main_v11 main_c_3
  let main_v13 : IVec S_ 1 := andi main_v8 main_v12
  main_v13
-- ==== Kernel.lean ====
abbrev S64x100000x2 : Shape := ⟨3, ![64, 100000, 2]⟩
abbrev S64x100000 : Shape := ⟨2, ![64, 100000]⟩
abbrev S64x100000x1 : Shape := ⟨3, ![64, 100000, 1]⟩
abbrev S1x100000 : Shape := ⟨2, ![1, 100000]⟩
abbrev S8x100000 : Shape := ⟨2, ![8, 100000]⟩
abbrev S100000 : Shape := ⟨1, ![100000]⟩
abbrev S64x1 : Shape := ⟨2, ![64, 1]⟩
abbrev S8x1 : Shape := ⟨2, ![8, 1]⟩
abbrev S8x10001 : Shape := ⟨2, ![8, 10001]⟩
abbrev S8x10000 : Shape := ⟨2, ![8, 10000]⟩
abbrev S1x10000 : Shape := ⟨2, ![1, 10000]⟩
abbrev S8 : Shape := ⟨1, ![8]⟩
abbrev S8x9999 : Shape := ⟨2, ![8, 9999]⟩
abbrev S1x9999 : Shape := ⟨2, ![1, 9999]⟩
abbrev S_ : Shape := ⟨0, ![]⟩
abbrev S64 : Shape := ⟨1, ![64]⟩

abbrev nBuf : Space → Nat
  | .hbm => 18
  | .vmem => 10
  | .smem => 0
  | _ => 0

abbrev bufTy : (tb : Table) → Fin (tcTables nBuf tb) → BufTy
  | .hbm, ⟨0, _⟩ => ⟨S64x100000x2, .f32⟩
  | .hbm, ⟨1, _⟩ => ⟨S64x100000x2, .f32⟩
  | .hbm, ⟨2, _⟩ => ⟨S64x100000, .f32⟩
  | .hbm, ⟨3, _⟩ => ⟨S64x100000x1, .f32⟩
  | .hbm, ⟨4, _⟩ => ⟨S64x100000, .f32⟩
  | .hbm, ⟨5, _⟩ => ⟨S64x100000x1, .f32⟩
  | .hbm, ⟨6, _⟩ => ⟨S64x100000, .f32⟩
  | .hbm, ⟨7, _⟩ => ⟨S1x100000, .f32⟩
  | .hbm, ⟨8, _⟩ => ⟨S64x1, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8x100000, .f32⟩
  | .local _ .vmem, ⟨1, _⟩ => ⟨S8x100000, .f32⟩
  | .local _ .vmem, ⟨2, _⟩ => ⟨S1x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | .local _ .vmem, ⟨6, _⟩ => ⟨S8x100000, .f32⟩
  | .local _ .vmem, ⟨7, _⟩ => ⟨S1x100000, .f32⟩
  | .local _ .vmem, ⟨8, _⟩ => ⟨S8x1, .f32⟩
  | .local _ .vmem, ⟨9, _⟩ => ⟨S8x1, .f32⟩
  | _, _ => ⟨S64x100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x100000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S64x100000x2_S64x100000x1_0_0_1 : S64x100000x2.Slices ![0, 0, 1] S64x100000x1
  shapeCasts_S64x100000x1_S64x100000 : S64x100000x1.ShapeCasts S64x100000
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  inb_S8x100000_S8x100000_0_0 : ∀ a, (![0, 0] : Fin 2 → Nat) a + S8x100000.size a ≤ S8x100000.size a
  h_S8x100000 : 0 < S8x100000.numel
  reduces_S8x100000_S100000 : S8x100000.Reduces [0] S100000
  shapeCasts_S100000_S1x100000 : S100000.ShapeCasts S1x100000
  inb_S8x100000_S8x10001_0_0 : ∀ a, (![0, 0] : Fin 2 → Nat) a + S8x10001.size a ≤ S8x100000.size a
  h_S8x10001 : 0 < S8x10001.numel
  shapeCasts_S8x10001_S8x10001 : S8x10001.ShapeCasts S8x10001
  slices_S8x10001_o0_1_S8x10000 : S8x10001.Slices ![0, 1] S8x10000
  slices_S8x10001_o0_0_S8x10000 : S8x10001.Slices ![0, 0] S8x10000
  inb_S1x100000_S1x10000_0_0 : ∀ a, (![0, 0] : Fin 2 → Nat) a + S1x10000.size a ≤ S1x100000.size a
  h_S1x10000 : 0 < S1x10000.numel
  shapeCasts_S1x10000_S1x10000 : S1x10000.ShapeCasts S1x10000
  inb_S1x100000_S1x10000_0_1 : ∀ a, (![0, 1] : Fin 2 → Nat) a + S1x10000.size a ≤ S1x100000.size a
  broadcasts_S1x10000_S8x10000 : S1x10000.Broadcasts S8x10000
  reduces_S8x10000_S8 : S8x10000.Reduces [1] S8
  shapeCasts_S8_S8x1 : S8.ShapeCasts S8x1
  inb_S8x100000_S8x10001_0_10000 : ∀ a, (![0, 10000] : Fin 2 → Nat) a + S8x10001.size a ≤ S8x100000.size a
  inb_S1x100000_S1x10000_0_10000 : ∀ a, (![0, 10000] : Fin 2 → Nat) a + S1x10000.size a ≤ S1x100000.size a
  inb_S1x100000_S1x10000_0_10001 : ∀ a, (![0, 10001] : Fin 2 → Nat) a + S1x10000.size a ≤ S1x100000.size a
  inb_S8x100000_S8x10001_0_20000 : ∀ a, (![0, 20000] : Fin 2 → Nat) a + S8x10001.size a ≤ S8x100000.size a
  inb_S1x100000_S1x10000_0_20000 : ∀ a, (![0, 20000] : Fin 2 → Nat) a + S1x10000.size a ≤ S1x100000.size a
  inb_S1x100000_S1x10000_0_20001 : ∀ a, (![0, 20001] : Fin 2 → Nat) a + S1x10000.size a ≤ S1x100000.size a
  inb_S8x100000_S8x10001_0_30000 : ∀ a, (![0, 30000] : Fin 2 → Nat) a + S8x10001.size a ≤ S8x100000.size a
  inb_S1x100000_S1x10000_0_30000 : ∀ a, (![0, 30000] : Fin 2 → Nat) a + S1x10000.size a ≤ S1x100000.size a
  inb_S1x100000_S1x10000_0_30001 : ∀ a, (![0, 30001] : Fin 2 → Nat) a + S1x10000.size a ≤ S1x100000.size a
  inb_S8x100000_S8x10001_0_40000 : ∀ a, (![0, 40000] : Fin 2 → Nat) a + S8x10001.size a ≤ S8x100000.size a
  inb_S1x100000_S1x10000_0_40000 : ∀ a, (![0, 40000] : Fin 2 → Nat) a + S1x10000.size a ≤ S1x100000.size a
  inb_S1x100000_S1x10000_0_40001 : ∀ a, (![0, 40001] : Fin 2 → Nat) a + S1x10000.size a ≤ S1x100000.size a
  inb_S8x100000_S8x10001_0_50000 : ∀ a, (![0, 50000] : Fin 2 → Nat) a + S8x10001.size a ≤ S8x100000.size a
  inb_S1x100000_S1x10000_0_50000 : ∀ a, (![0, 50000] : Fin 2 → Nat) a + S1x10000.size a ≤ S1x100000.size a
  inb_S1x100000_S1x10000_0_50001 : ∀ a, (![0, 50001] : Fin 2 → Nat) a + S1x10000.size a ≤ S1x100000.size a
  inb_S8x100000_S8x10001_0_60000 : ∀ a, (![0, 60000] : Fin 2 → Nat) a + S8x10001.size a ≤ S8x100000.size a
  inb_S1x100000_S1x10000_0_60000 : ∀ a, (![0, 60000] : Fin 2 → Nat) a + S1x10000.size a ≤ S1x100000.size a
  inb_S1x100000_S1x10000_0_60001 : ∀ a, (![0, 60001] : Fin 2 → Nat) a + S1x10000.size a ≤ S1x100000.size a
  inb_S8x100000_S8x10001_0_70000 : ∀ a, (![0, 70000] : Fin 2 → Nat) a + S8x10001.size a ≤ S8x100000.size a
  inb_S1x100000_S1x10000_0_70000 : ∀ a, (![0, 70000] : Fin 2 → Nat) a + S1x10000.size a ≤ S1x100000.size a
  inb_S1x100000_S1x10000_0_70001 : ∀ a, (![0, 70001] : Fin 2 → Nat) a + S1x10000.size a ≤ S1x100000.size a
  inb_S8x100000_S8x10001_0_80000 : ∀ a, (![0, 80000] : Fin 2 → Nat) a + S8x10001.size a ≤ S8x100000.size a
  inb_S1x100000_S1x10000_0_80000 : ∀ a, (![0, 80000] : Fin 2 → Nat) a + S1x10000.size a ≤ S1x100000.size a
  inb_S1x100000_S1x10000_0_80001 : ∀ a, (![0, 80001] : Fin 2 → Nat) a + S1x10000.size a ≤ S1x100000.size a
  inb_S8x100000_S8x10000_0_90000 : ∀ a, (![0, 90000] : Fin 2 → Nat) a + S8x10000.size a ≤ S8x100000.size a
  h_S8x10000 : 0 < S8x10000.numel
  shapeCasts_S8x10000_S8x10000 : S8x10000.ShapeCasts S8x10000
  slices_S8x10000_o0_1_S8x9999 : S8x10000.Slices ![0, 1] S8x9999
  slices_S8x10000_o0_0_S8x9999 : S8x10000.Slices ![0, 0] S8x9999
  inb_S1x100000_S1x9999_0_90000 : ∀ a, (![0, 90000] : Fin 2 → Nat) a + S1x9999.size a ≤ S1x100000.size a
  h_S1x9999 : 0 < S1x9999.numel
  shapeCasts_S1x9999_S1x9999 : S1x9999.ShapeCasts S1x9999
  inb_S1x100000_S1x9999_0_90001 : ∀ a, (![0, 90001] : Fin 2 → Nat) a + S1x9999.size a ≤ S1x100000.size a
  broadcasts_S1x9999_S8x9999 : S1x9999.Broadcasts S8x9999
  reduces_S8x9999_S8 : S8x9999.Reduces [1] S8
  inb_S8x1_S8x1_0_0 : ∀ a, (![0, 0] : Fin 2 → Nat) a + S8x1.size a ≤ S8x1.size a
  h_S8x1 : 0 < S8x1.numel
  reducesTo_S1x100000_S_d0_1 : S1x100000.ReducesTo [0, 1] S_
  h_S_ : 0 < S_.numel
  shapeCasts_S64x1_S64 : S64x1.ShapeCasts S64
  bcast_S_S64 : S_.BroadcastsInDim S64 (![] : Fin 0 → Fin S64.rank)
  reducesTo_S64_S_d0 : S64.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S64x100000.size a
  hwx0_0 : ∀ i : grid0.Coords, EltTy.bits .f32 = 32 ∨ (Rect.block (s := S64x100000) S8x100000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100000.size a ≤ S1x100000.size a
  hwx0_1 : ∀ i : grid0.Coords, EltTy.bits .f32 = 32 ∨ (Rect.block (s := S1x100000) S1x100000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x100000.size a ≤ S64x100000.size a
  hwx1_0 : ∀ i : grid1.Coords, EltTy.bits .f32 = 32 ∨ (Rect.block (s := S64x100000) S8x100000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x100000.size a ≤ S64x100000.size a
  hwx1_1 : ∀ i : grid1.Coords, EltTy.bits .f32 = 32 ∨ (Rect.block (s := S64x100000) S8x100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x100000.size a ≤ S1x100000.size a
  hwx1_2 : ∀ i : grid1.Coords, EltTy.bits .f32 = 32 ∨ (Rect.block (s := S1x100000) S1x100000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1.size a ≤ S64x1.size a
  hwx1_3 : ∀ i : grid1.Coords, EltTy.bits .f32 = 32 ∨ (Rect.block (s := S64x1) S8x1.size (cc1_transform_3 i) (hinb1_3 i)).WholeWords (EltTy.packing .f32)

variable [Facts₀]

abbrev win0_0 : Pipeline.Window sig grid0 :=
  Pipeline.Window.ofSpec (Memref.whole main_arg2) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x100000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S8x100000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x100000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x100000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x100000x2 : Shape := ⟨3, ![64, 100000, 2]⟩
abbrev S64x100000 : Shape := ⟨2, ![64, 100000]⟩
abbrev S64x100000x1 : Shape := ⟨3, ![64, 100000, 1]⟩
abbrev S64x99999 : Shape := ⟨2, ![64, 99999]⟩
abbrev S_ : Shape := ⟨0, ![]⟩
abbrev S100000 : Shape := ⟨1, ![100000]⟩
abbrev S1x100000 : Shape := ⟨2, ![1, 100000]⟩
abbrev S64 : Shape := ⟨1, ![64]⟩

abbrev nBuf : Space → Nat
  | .hbm => 52
  | .vmem => 0
  | .smem => 0
  | _ => 0

abbrev bufTy : (tb : Table) → Fin (tcTables nBuf tb) → BufTy
  | .hbm, ⟨0, _⟩ => ⟨S64x100000x2, .f32⟩
  | .hbm, ⟨1, _⟩ => ⟨S64x100000x2, .f32⟩
  | .hbm, ⟨2, _⟩ => ⟨S64x100000, .f32⟩
  | .hbm, ⟨3, _⟩ => ⟨S64x100000x1, .f32⟩
  | .hbm, ⟨4, _⟩ => ⟨S64x100000, .f32⟩
  | .hbm, ⟨5, _⟩ => ⟨S64x99999, .f32⟩
  | .hbm, ⟨6, _⟩ => ⟨S64x99999, .f32⟩
  | .hbm, ⟨7, _⟩ => ⟨S64x99999, .f32⟩
  | .hbm, ⟨8, _⟩ => ⟨S64x99999, .f32⟩
  | .hbm, ⟨9, _⟩ => ⟨S_, .i32⟩
  | .hbm, ⟨10, _⟩ => ⟨S_, .f32⟩
  | .hbm, ⟨11, _⟩ => ⟨S64x100000, .f32⟩
  | .hbm, ⟨12, _⟩ => ⟨S_, .i32⟩
  | .hbm, ⟨13, _⟩ => ⟨S_, .f32⟩
  | .hbm, ⟨14, _⟩ => ⟨S64x100000, .f32⟩
  | .hbm, ⟨15, _⟩ => ⟨S64x100000x1, .f32⟩
  | .hbm, ⟨16, _⟩ => ⟨S64x100000x1, .f32⟩
  | .hbm, ⟨17, _⟩ => ⟨S64x100000x2, .f32⟩
  | .hbm, ⟨18, _⟩ => ⟨S64x100000x1, .f32⟩
  | .hbm, ⟨19, _⟩ => ⟨S64x100000, .f32⟩
  | .hbm, ⟨20, _⟩ => ⟨S64x99999, .f32⟩
  | .hbm, ⟨21, _⟩ => ⟨S64x99999, .f32⟩
  | .hbm, ⟨22, _⟩ => ⟨S64x99999, .f32⟩
  | .hbm, ⟨23, _⟩ => ⟨S64x99999, .f32⟩
  | .hbm, ⟨24, _⟩ => ⟨S_, .i32⟩
  | .hbm, ⟨25, _⟩ => ⟨S_, .f32⟩
  | .hbm, ⟨26, _⟩ => ⟨S64x100000, .f32⟩
  | .hbm, ⟨27, _⟩ => ⟨S_, .i32⟩
  | .hbm, ⟨28, _⟩ => ⟨S_, .f32⟩
  | .hbm, ⟨29, _⟩ => ⟨S64x100000, .f32⟩
  | .hbm, ⟨30, _⟩ => ⟨S64x100000x1, .f32⟩
  | .hbm, ⟨31, _⟩ => ⟨S64x100000x1, .f32⟩
  | .hbm, ⟨32, _⟩ => ⟨S64x100000x2, .f32⟩
  | .hbm, ⟨33, _⟩ => ⟨S64x100000x2, .f32⟩
  | .hbm, ⟨34, _⟩ => ⟨S64x100000x2, .f32⟩
  | .hbm, ⟨35, _⟩ => ⟨S_, .f32⟩
  | .hbm, ⟨36, _⟩ => ⟨S100000, .f32⟩
  | .hbm, ⟨37, _⟩ => ⟨S_, .f32⟩
  | .hbm, ⟨38, _⟩ => ⟨S64x100000, .f32⟩
  | .hbm, ⟨39, _⟩ => ⟨S1x100000, .f32⟩
  | .hbm, ⟨40, _⟩ => ⟨S64x100000, .f32⟩
  | .hbm, ⟨41, _⟩ => ⟨S64x100000, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S64x100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call1_v0 : Ref sig .tc := ⟨.hbm, 10, rfl⟩
abbrev main_v4 : Ref sig .tc := ⟨.hbm, 11, rfl⟩
abbrev main_c_0 : Ref sig .tc := ⟨.hbm, 12, rfl⟩
abbrev main_call2_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call3_v0 : Ref sig .tc := ⟨.hbm, 20, rfl⟩
abbrev main_call3_v1 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call4_v0 : Ref sig .tc := ⟨.hbm, 25, rfl⟩
abbrev main_v13 : Ref sig .tc := ⟨.hbm, 26, rfl⟩
abbrev main_c_2 : Ref sig .tc := ⟨.hbm, 27, rfl⟩
abbrev main_call5_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  slices_S64x100000x2_S64x100000x1_0_0_1 : S64x100000x2.Slices ![0, 0, 1] S64x100000x1
  shapeCasts_S64x100000x1_S64x100000 : S64x100000x1.ShapeCasts S64x100000
  slices_S64x100000_S64x99999_0_1 : S64x100000.Slices ![0, 1] S64x99999
  slices_S64x100000_S64x99999_0_0 : S64x100000.Slices ![0, 0] S64x99999
  pads_S64x99999_S64x100000_000_100 : S64x99999.Pads (![0, 1] : Fin 2 → Nat) ![0, 0] ![0, 0] S64x100000
  h_S_ : 0 < S_.numel
  pads_S64x99999_S64x100000_000_010 : S64x99999.Pads (![0, 0] : Fin 2 → Nat) ![0, 1] ![0, 0] S64x100000
  bcast_S64x100000_S64x100000x1_0_1 : S64x100000.BroadcastsInDim S64x100000x1 (![0, 1] : Fin 2 → Fin S64x100000x1.rank)
  concatenates_S64x100000x1_S64x100000x1_S64x100000x2_d2 : Shape.Concatenates [S64x100000x1, S64x100000x1] S64x100000x2 2
  reducesTo_S64x100000_S100000_d0 : S64x100000.ReducesTo [0] S100000
  reducesTo_S64x100000x2_S64x100000_d2 : S64x100000x2.ReducesTo [2] S64x100000
  bcast_S100000_S1x100000_1 : S100000.BroadcastsInDim S1x100000 (![1] : Fin 1 → Fin S1x100000.rank)
  bcast_S1x100000_S64x100000_0_1 : S1x100000.BroadcastsInDim S64x100000 (![0, 1] : Fin 2 → Fin S64x100000.rank)
  reducesTo_S64x100000_S64_d1 : S64x100000.ReducesTo [1] S64
  reducesTo_S64x100000_S_d0_1 : S64x100000.ReducesTo [0, 1] S_
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KRun.lean ====
/-
  The idealized kernel's run with its result NAMED.

  @main is four segments: the host slices that take the y channels out of `pred` and `coords`, the region that
  accumulates the column sums of `labels`, the region that scores each row, and the host tail (total, division, mean).
  The generated frame follows the buffers' contents through those segments as a fold `W0 … W4` and keeps of the last
  boundary only that the argument arrays are as launched; here the same launch over the same segments is read once more
  at the last boundary, this time also at the result buffer: the run ends with the result at `W4 … main_v11`, the
  fold's last value there. What that value IS is the subject of the other modules.
-/
import proofs.«140459_j63702954934362_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the three argument arrays as launched. -/
theorem run_named : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun

end
-- ==== Proof.Spec.lean ====
/-
  The neighbour-difference loss, as formulas over the extended reals.

  For arrays `P`, `C` of shape [64, 100000, 2] (only the channel 1, "y", is read) and `L` of shape [64, 100000]:
  the gap between neighbours `i` and `i+1` of row `b` is `|y(b,i+1) - y(b,i)|`, an edge's weight is
  `| gap C - gap P |`, and a row's score pairs every edge with the column sums of `L` at its two ends.

  Two arrangements of that score are stated here, each exactly as one of the two programs computes it:
  * edge by edge, in ten consecutive chunks of the 99999 edges, each edge times the SUM of the two column sums
    (`rowChunks`), with the column sums themselves accumulated eight rows at a time (`colBlocks`);
  * position by position, each position's two incident edges (the one before, `top`, zero at the first position;
    the one after, `bot`, zero at the last) added first and then multiplied by that position's column sum
    (`rowByPos`), the column sum taken over all 64 rows at once (`colAll`).
  Both end with the same tail: each row's score divided by the total of `L`, the mean over the 64 rows (`tail`).
-/
import Idealize.ShloMosaic.PureOps.Ideal
import Idealize.ShloMosaic.PureOps.Ideal.Laws
import Idealize.ShloMosaic.Lib.ValueIdx

noncomputable section

namespace EdgeLoss

open Idealize.ShloMosaic Idealize.ShloMosaic.ValueIdx

abbrev T3 : Shape := ⟨3, ![64, 100000, 2]⟩
abbrev T2 : Shape := ⟨2, ![64, 100000]⟩
abbrev T1 : Shape := ⟨1, ![64]⟩
abbrev T0 : Shape := ⟨0, ![]⟩

/-- The absolute value on the extended reals. -/
def mag (x : EReal) : EReal := max x (-x)

/-- The y channel of a [64, 100000, 2] array. -/
def ych (A : T3.Idx → EReal) (b : Fin 64) (n : Fin 100000) : EReal := A (ix3 b n (1 : Fin 2))

/-- The gap between the neighbours `i` and `i + 1` of row `b`. -/
def gap (A : T3.Idx → EReal) (b : Fin 64) (i : ℕ) (h : i + 1 < 100000) : EReal :=
  mag (ych A b ⟨i + 1, h⟩ - ych A b ⟨i, Nat.lt_of_succ_lt h⟩)

/-- The weight of edge `i` (between positions `i` and `i + 1`): how much the two arrays' gaps differ. -/
def edge (P C : T3.Idx → EReal) (b : Fin 64) (i : ℕ) (h : i + 1 < 100000) : EReal :=
  mag (gap C b i h - gap P b i h)

/-! ## Edge by edge, in chunks; column sums eight rows at a time -/

/-- The sum of column `n` over the eight rows of block `t`. -/
def blockSum (L : T2.Idx → EReal) (n : Fin 100000) (t : ℕ) (ht : t < 8) : EReal :=
  ∑ r : Fin 8, L (ix2 (⟨8 * t + r.val, by have := r.isLt; omega⟩ : Fin 64) n)

/-- The running column sum after block `t`: from zero, one block at a time. -/
def colChain (L : T2.Idx → EReal) (n : Fin 100000) : (t : ℕ) → t < 8 → EReal
  | 0, h => 0 + blockSum L n 0 h
  | t + 1, h => colChain L n t (Nat.lt_of_succ_lt h) + blockSum L n (t + 1) h

/-- The column sum, accumulated over the eight blocks in order. -/
def colBlocks (L : T2.Idx → EReal) (n : Fin 100000) : EReal := colChain L n 7 (by decide)

/-- Edge `i` times the sum of the column sums at its two ends. -/
def edgeTerm (P C : T3.Idx → EReal) (cl : Fin 100000 → EReal) (b : Fin 64) (i : ℕ) (h : i + 1 < 100000) : EReal :=
  edge P C b i h * (cl ⟨i, Nat.lt_of_succ_lt h⟩ + cl ⟨i + 1, h⟩)

/-- The edges `10000 c … 10000 c + 9999` of row `b`, summed (chunks 0 … 8). -/
def chunkSum (P C : T3.Idx → EReal) (cl : Fin 100000 → EReal) (b : Fin 64) (c : ℕ) (hc : c < 9) : EReal :=
  ∑ j : Fin 10000, edgeTerm P C cl b (10000 * c + j.val) (by have := j.isLt; omega)

/-- The last chunk has one edge fewer: edges `90000 … 99998`. -/
def lastSum (P C : T3.Idx → EReal) (cl : Fin 100000 → EReal) (b : Fin 64) : EReal :=
  ∑ j : Fin 9999, edgeTerm P C cl b (90000 + j.val) (by have := j.isLt; omega)

/-- The running row score after chunk `c`: from zero, one chunk at a time. -/
def rowChain (P C : T3.Idx → EReal) (cl : Fin 100000 → EReal) (b : Fin 64) : (c : ℕ) → c < 9 → EReal
  | 0, h => 0 + chunkSum P C cl b 0 h
  | c + 1, h => rowChain P C cl b c (Nat.lt_of_succ_lt h) + chunkSum P C cl b (c + 1) h

/-- Row `b`'s score, chunk by chunk. -/
def rowChunks (P C : T3.Idx → EReal) (cl : Fin 100000 → EReal) (b : Fin 64) : EReal :=
  rowChain P C cl b 8 (by decide) + lastSum P C cl b

/-- The total of the column sums. -/
def totCols (cl : Fin 100000 → EReal) : EReal := 0 + ∑ n : Fin 100000, cl n

/-! ## Position by position; column sums over all rows at once -/

/-- The column sum over the 64 rows. -/
def colAll (L : T2.Idx → EReal) (n : Fin 100000) : EReal := 0 + ∑ k : Fin 64, L (ix2 k n)

/-- The gap before position `n` (zero at the first position). -/
def top (A : T3.Idx → EReal) (b : Fin 64) (n : Fin 100000) : EReal :=
  if h : 1 ≤ n.val then gap A b (n.val - 1) (by have := n.isLt; omega) else 0

/-- The gap after position `n` (zero at the last position). -/
def bot (A : T3.Idx → EReal) (b : Fin 64) (n : Fin 100000) : EReal :=
  if h : n.val + 1 < 100000 then gap A b n.val h else 0

/-- Row `b`'s score, position by position. -/
def rowByPos (P C : T3.Idx → EReal) (L : T2.Idx → EReal) (b : Fin 64) : EReal :=
  0 + ∑ n : Fin 100000, (0 + (mag (top C b n - top P b n) + mag (bot C b n - bot P b n))) * colAll L n

/-- The total of `L`. -/
def totAll (L : T2.Idx → EReal) : EReal := 0 + ∑ i : T2.Idx, L i

/-! ## The common tail -/

theorem hbT : T0.BroadcastsInDim T1 (![] : Fin 0 → Fin T1.rank) := by decide
theorem hrT : T1.ReducesTo [0] T0 := by decide
theorem huT : 0 < T0.numel := by decide

/-- Each row's score over the total, then the mean of the 64 rows: the two host divisions and the host sum between
    them, as both programs end. -/
def tail (v : T1.Idx → EReal) (s : T0.Idx → EReal) : T0.Idx → EReal :=
  Host.divf (F := Ideal) (φ := .f32)
    (Host.reduceAdd (F := Ideal) (φ := .f32)
      (Host.divf (F := Ideal) (φ := .f32) v (broadcastInDim T1 (![] : Fin 0 → Fin T1.rank) hbT s))
      (constant (F := Ideal) T0 .f32 0x00000000#32) hrT huT)
    (constant (F := Ideal) T0 .f32 0x42800000#32)

end EdgeLoss

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KCols.lean ====
/-
  The first region: the column sums of `labels`, eight rows at a time.

  The grid has eight points; point `t` sees rows `8t … 8t+7` of the [64, 100000] array through its input window and
  ONE output block, the whole [1, 100000] row, whose index never moves. At the first point the body stores the zero
  row, reads it back and adds the block's column sums; at every later point it adds the block's column sums to what
  the point before left. The output is written back once, after the last point. So the array the region leaves is
  the running sum after point 7, and entry `n` of that is `EdgeLoss.colBlocks` of the input array at `n`.
-/
import proofs.«140459_j63702954934362_2_alg».proof.Proof.Gen.KernelIdeal.Frame
import proofs.«140459_j63702954934362_2_alg».proof.Proof.Spec
import proofs.«140459_j63702954934362_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KCols

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- A later point: over the running row `xo`, the body leaves `xo` plus the column sums of the block `x`. -/
theorem out_B (c : Dev nD) (i : grid0.Coords) (a1 : Memref sig .tc .vmem S8x100000 .f32) (h1 : a1.IsWhole)
    (a2 : Memref sig .tc .vmem S1x100000 .f32) (h2 : a2.IsWhole) (hc : ¬cond0_0 i) (x : Vec F S8x100000 .f32)
    (xo : Vec F S1x100000 .f32) :
    out0_B_1 c i a1 h1 a2 h2 hc x xo = k0_pay2 xo x := by
  unfold out0_B_1
  rw [View.read_writes_eq_canon _ _ _ (cover0_B_1 c i a1 h1 a2 h2 hc x xo)]
  unfold kernelRun0_B
  dsimp only
  rw [View.canon_unit_zero hz]
  simp only [View.readAt_eq_ld, h1.read_unread, h2.read_unread, View.ld_unit_zero (S := S8x100000) hz,
    View.ld_unit_zero (S := S1x100000) hz]

/-- The first point: the zero row is stored and read back, so the body leaves zero plus the block's column sums. -/
theorem out_A (c : Dev nD) (i : grid0.Coords) (a1 : Memref sig .tc .vmem S8x100000 .f32) (h1 : a1.IsWhole)
    (a2 : Memref sig .tc .vmem S1x100000 .f32) (h2 : a2.IsWhole) (hc : cond0_0 i) (x : Vec F S8x100000 .f32) :
    out0_A_1 c i a1 h1 a2 h2 hc x = k0_pay2 (k0_pay1 (F := F)) x := by
  unfold out0_A_1
  rw [View.read_writes_eq_canon _ _ _ (cover0_A_1 c i a1 h1 a2 h2 hc x)]
  unfold kernelRun0_A
  dsimp only
  sl_unfold_words
  rw [View.canon_cons_unit_zero (S := S1x100000) hz, View.readCov_unit_zero (S := S1x100000) _ hz]
  simp only [View.readAt_eq_ld, h1.read_unread, View.ld_unit_zero (S := S8x100000) hz,
    View.ld_unit_zero (S := S1x100000) hz]

/-- The running row after point `n`. -/
def acc (c : Dev nD) : (n : ℕ) → n < cfg0.N → Vec F S1x100000 .f32
  | 0, h => k0_pay2 (k0_pay1 (F := F)) (iblk0 V c 0 ⟨0, h⟩)
  | n + 1, h => k0_pay2 (acc c n (Nat.lt_of_succ_lt h)) (iblk0 V c 0 ⟨n + 1, h⟩)

/-- What the output's staging buffer holds after point `n` is the running row: by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 8 := N_0
    have hB : ¬(⟨n + 1, h⟩ : Fin cfg0.N).val % 8 = 0 := by dsimp only; omega
    rw [outsAt0_B V c ⟨n + 1, h⟩ hB, out_B]
    show k0_pay2 (outsAt0 V c n _) _ = k0_pay2 (acc V c n _) _
    rw [outsAt_eq c n]

/-- The running row after the last point, as contents of the output array (its one block is the whole array). -/
abbrev result (c : Dev nD) : Buf (Elt F) ((c : Thread nD τ).loc main_v4) := acc V c 7 (by rw [show cfg0.N = 8 from N_0]; decide)

/-- The one write-back, at point 7, writes it. -/
theorem flushed_eq (c : Dev nD) (t : Fin cfg0.N) (hf : (cfg0.win 1).flush t = true) :
    (dat0 V c).flushed 1 t = ((cfg0.win 1).blk t).view.read (Elt F) (result V c) := by
  have hN : cfg0.N = 8 := N_0
  have h7 : t.val = 7 := by have := (flush0_1 t).mp hf; have := t.isLt; omega
  obtain rfl : t = t0_7 := Fin.ext h7
  show (cfg0.win 1).cut (grid0.coords t0_7) ((dat0 V c).after 1 t0_7) = _
  rw [after0_1, outsAt_eq]
  have hz' : (fun a => win0_1.index t0_7 a * main_v4.ty.shape.size a) = fun _ => 0 := funext fun a => by fin_cases a <;> decide
  exact (Memref.read_access_unit_zero (Elt F) main_v4 hz' (fun a => by rw [congrFun hz' a]; simp) (result V c)).symm

/-- So the output array ends at the running row after point 7: that point's block covers it. -/
theorem final (c : Dev nD) : (dat0 V c).arrAt 1 cfg0.N = result V c :=
  (dat0 V c).arrAt_eq_of_cover 1 (result V c) (flushed_eq V c) fun i =>
    ⟨t0_7, (flush0_1 t0_7).mpr rfl, by
      show i ∈ ((View.whole main_v4).slice (win0_1.rect t0_7)).set
      rw [View.set_slice_whole, Rect.mem_set_unit]
      intro a
      have h0 : (i 0 : Nat) < 1 := (i 0).isLt
      have h1 : (i 1 : Nat) < 100000 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 100000 from by decide +kernel]; omega⟩

end Cert.KernelIdeal.KCols

end
-- ==== Proof.LibRowsSum.lean ====
/-
  GENERAL LEMMA: a rank-2 array of extended reals summed along its FIRST axis — what `sum(x, axis=0)` becomes in a
  vector program — read at an index given by its coordinate.
  • `multiReduction_add_axis0_apply`: the sum over the rows of an `[a, b]` array from the zero word, at `j`, is the
    sum of column `j`.
-/
import Idealize.ShloMosaic.Lib.ValueIdx
import Idealize.ShloMosaic.PureOps.Ideal.Laws

noncomputable section

open scoped BigOperators

namespace Idealize.ShloMosaic.ValueIdx

open Idealize.ShloMosaic

/-- The sum over the rows of an `[a, b]` array of extended reals, accumulated from the zero word: at `j` it is the
    sum of column `j`. -/
theorem multiReduction_add_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KColsAt.lean ====
/-
  The column sums the first region leaves, entry by entry, over the extended reals.

  One step of the accumulation adds, at column `n`, the eight entries of the block's column `n` to the running
  entry; the block point `t` sees is rows `8t … 8t+7` of the array; the zero row is zero. So the running row after
  point `t` is `EdgeLoss.colChain` of the array, and the array the region leaves is `EdgeLoss.colBlocks` of it.
-/
import proofs.«140459_j63702954934362_2_alg».proof.Proof.KCols
import proofs.«140459_j63702954934362_2_alg».proof.Proof.LibRowsSum

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KCols

open Cert.KernelIdeal Cert.KernelIdeal.Gen

variable (V : (c : Dev nD) → (b : Ref sig .tc) → Buf (Elt Ideal) ((c : Thread nD τ).loc b))

/-- One step at column `n`: the running entry plus the eight entries of the block's column. -/
theorem step_apply (xo : Vec Ideal S1x100000 .f32) (x : Vec Ideal S8x100000 .f32) (n : Fin 100000) :
    k0_pay2 (F := Ideal) xo x (ix2 (0 : Fin 1) n) = xo (ix2 (0 : Fin 1) n) + ∑ k : Fin 8, x (ix2 k n) := by
  unfold k0_pay2
  rw [addf_apply, shapeCast_self, shapeCast_a_1a_apply]
  exact congrArg (xo (ix2 (0 : Fin 1) n) + ·) (multiReduction_add_axis0_apply x _ _ _ n)

/-- The zero row is zero. -/
theorem zero_apply (n : Fin 100000) : k0_pay1 (F := Ideal) (ix2 (0 : Fin 1) n) = 0 := by
  unfold k0_pay1
  exact Ideal.ofBits_zero_f32

/-- The block's index: point `t` sees block `(t, 0)` — decided once over the grid. -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(r, n)` of the block at point `t` is entry `(8t + r, n)` of the array. -/
theorem iblk_apply (c : Dev nD) (t : Fin cfg0.N) (r : Fin 8) (n : Fin 100000) (R : Fin 64) (hR : R.val = 8 * t.val + r.val) :
    (iblk0 V c 0 t : Vec Ideal S8x100000 .f32) (ix2 r n) = V c main_arg2 (ix2 R n) := by
  unfold iblk0
  rw [View.read_apply]
  show V c main_arg2 _ = V c main_arg2 _
  congr 1
  funext a
  apply Fin.ext
  match a with
  | ⟨0, _⟩ => show win0_0.index t 0 * 8 + 1 * r.val = R.val; rw [(idx_rows t).1, hR]; omega
  | ⟨1, _⟩ => show win0_0.index t 1 * 100000 + 1 * n.val = n.val; rw [(idx_rows t).2]; omega

/-- One step at column `n`, for a block whose column `n` is rows `8t … 8t+7` of an array `A`: the running entry
    plus `A`'s block sum. -/
theorem step_block (A : EdgeLoss.T2.Idx → EReal) (xo : Vec Ideal S1x100000 .f32) (x : Vec Ideal S8x100000 .f32)
    (n : Fin 100000) (t : ℕ) (ht : t < 8)
    (hx : ∀ k : Fin 8, x (ix2 k n) = A (ix2 (⟨8 * t + k.val, by have := k.isLt; omega⟩ : Fin 64) n)) :
    k0_pay2 (F := Ideal) xo x (ix2 (0 : Fin 1) n) = xo (ix2 (0 : Fin 1) n) + EdgeLoss.blockSum A n t ht := by
  rw [step_apply]
  unfold EdgeLoss.blockSum
  exact congrArg (xo (ix2 (0 : Fin 1) n) + ·) (Finset.sum_congr rfl fun k _ => hx k)

/-- The running row after point `t`, at column `n`, is the running column sum. -/
theorem acc_apply (c : Dev nD) (n : Fin 100000) : ∀ (t : ℕ) (h : t < cfg0.N) (h' : t < 8),
    acc V c t h (ix2 (0 : Fin 1) n) = EdgeLoss.colChain (V c main_arg2) n t h'
  | 0, h, h' => by
    show k0_pay2 (F := Ideal) _ _ _ = 0 + EdgeLoss.blockSum _ n 0 h'
    refine (step_block (V c main_arg2) _ _ n 0 h' (fun k => iblk_apply V c ⟨0, h⟩ k n _ rfl)).trans ?_
    rw [zero_apply]
  | t + 1, h, h' => by
    show k0_pay2 (F := Ideal) _ _ _ = EdgeLoss.colChain _ n t _ + EdgeLoss.blockSum _ n (t + 1) h'
    refine (step_block (V c main_arg2) _ _ n (t + 1) h' (fun k => iblk_apply V c ⟨t + 1, h⟩ k n _ rfl)).trans ?_
    rw [acc_apply c n t (Nat.lt_of_succ_lt h) (Nat.lt_of_succ_lt h')]

/-- The array the region leaves, at column `n`: the column sum accumulated over the eight blocks. -/
theorem final_apply (c : Dev nD) (n : Fin 100000) :
    (dat0 V c).arrAt 1 cfg0.N (ix2 (0 : Fin 1) n) = EdgeLoss.colBlocks (V c main_arg2) n := by
  rw [final V c]
  exact acc_apply V c n 7 _ (by decide)

end Cert.KernelIdeal.KCols

end
-- ==== Proof.KBlocks.lean ====
/-
  The second region: from what each point writes back to the array the region leaves.

  The grid has eight points; point `t` sees rows `8t … 8t+7` of the two [64, 100000] arrays of y channels through its
  first two windows, the whole [1, 100000] row of column sums through its third, and writes back block `t` — rows
  `8t … 8t+7` — of the [64, 1] column of row scores. The blocks tile the column, every point writes its block back, and
  what point `t` writes at its row `p` depends only on row `8t + p` of the two arrays and on the column sums. So,
  given that the body's block at row `p` is the chunked row score of the arrays' row behind it (`hbody`), the column
  the region leaves holds at row `b` the chunked row score of row `b`.
-/
import proofs.«140459_j63702954934362_2_alg».proof.Proof.Gen.KernelIdeal.Frame
import proofs.«140459_j63702954934362_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KBlocks

open Cert.KernelIdeal Cert.KernelIdeal.Gen

variable (V : (c : Dev nD) → (b : Ref sig .tc) → Buf (Elt Ideal) ((c : Thread nD τ).loc b))

/-- The windows' block indices, decided once over the grid: the two arrays' and the output's blocks move down the
    rows with the point, the row of column sums stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, i)` of the first array's block at point `t` is entry `(8t + p, i)` of the array. -/
theorem iblk0_apply (c : Dev nD) (t : Fin cfg1.N) (p : Fin 8) (i : Fin 100000) (R : Fin 64) (hR : R.val = 8 * t.val + p.val) :
    (iblk1 V c 0 t : Vec Ideal S8x100000 .f32) (ix2 p i) = V c main_v1 (ix2 R i) := by
  unfold iblk1
  rw [View.read_apply]
  show V c main_v1 _ = V c main_v1 _
  congr 1
  funext a
  apply Fin.ext
  obtain ⟨e0, e1, -⟩ := idx_facts t
  match a with
  | ⟨0, _⟩ => show win1_0.index t 0 * 8 + 1 * p.val = R.val; rw [e0, hR]; omega
  | ⟨1, _⟩ => show win1_0.index t 1 * 100000 + 1 * i.val = i.val; rw [e1]; omega

/-- The same for the second array. -/
theorem iblk1_apply (c : Dev nD) (t : Fin cfg1.N) (p : Fin 8) (i : Fin 100000) (R : Fin 64) (hR : R.val = 8 * t.val + p.val) :
    (iblk1 V c 1 t : Vec Ideal S8x100000 .f32) (ix2 p i) = V c main_v3 (ix2 R i) := by
  unfold iblk1
  rw [View.read_apply]
  show V c main_v3 _ = V c main_v3 _
  congr 1
  funext a
  apply Fin.ext
  obtain ⟨-, -, e0, e1, -⟩ := idx_facts t
  match a with
  | ⟨0, _⟩ => show win1_1.index t 0 * 8 + 1 * p.val = R.val; rw [e0, hR]; omega
  | ⟨1, _⟩ => show win1_1.index t 1 * 100000 + 1 * i.val = i.val; rw [e1]; omega

/-- The third window's block is the whole row of column sums, at every point. -/
theorem iblk2_apply (c : Dev nD) (t : Fin cfg1.N) (i : Fin 100000) :
    (iblk1 V c 2 t : Vec Ideal S1x100000 .f32) (ix2 (0 : Fin 1) i) = V c main_v4 (ix2 (0 : Fin 1) i) := by
  unfold iblk1
  rw [View.read_apply]
  show V c main_v4 _ = V c main_v4 _
  congr 1
  funext a
  apply Fin.ext
  obtain ⟨-, -, -, -, e0, e1, -⟩ := idx_facts t
  match a with
  | ⟨0, _⟩ => show win1_2.index t 0 * 1 + 1 * (0 : Fin 1).val = (0 : Fin 1).val; rw [e0]; rfl
  | ⟨1, _⟩ => show win1_2.index t 1 * 100000 + 1 * i.val = i.val; rw [e1]; omega

/-- An index of the column is in point `t`'s block iff each coordinate is in the block's range on its axis. -/
theorem mem_blk (t : Fin cfg1.N) (i : S64x1.Idx) :
    i ∈ ((cfg1.win 3).blk t).view.set ↔ ∀ a : Fin 2, win1_3.index t a * S8x1.size a ≤ (i a).val ∧ (i a).val < win1_3.index t a * S8x1.size a + S8x1.size a := by
  show i ∈ ((View.whole main_v5).slice (win1_3.rect t)).set ↔ _
  rw [View.set_slice_whole, Rect.mem_set_unit]
  exact Iff.rfl

section
variable (P C : EdgeLoss.T3.Idx → EReal) (cl : Fin 100000 → EReal)

/-- The column of chunked row scores. -/
abbrev scores : S64x1.Idx → EReal := fun i => EdgeLoss.rowChunks P C cl (⟨(i 0).val, (i 0).isLt⟩ : Fin 64)

variable (hbody : ∀ (x0 x1 : Vec Ideal S8x100000 .f32) (x2 : Vec Ideal S1x100000 .f32) (b : Fin 64) (p : Fin 8),
      (∀ i : Fin 100000, x0 (ix2 p i) = EdgeLoss.ych P b i) → (∀ i : Fin 100000, x1 (ix2 p i) = EdgeLoss.ych C b i) →
      (∀ i : Fin 100000, x2 (ix2 (0 : Fin 1) i) = cl i) →
      out1_3 (F := Ideal) x0 x1 x2 (ix2 p (0 : Fin 1)) = EdgeLoss.rowChunks P C cl b)
include hbody

/-- What point `t` writes back is block `t` of the column of row scores. -/
theorem flushed_eq (c : Dev nD)
    (hP : ∀ (b : Fin 64) (n : Fin 100000), V c main_v1 (ix2 b n) = EdgeLoss.ych P b n)
    (hC : ∀ (b : Fin 64) (n : Fin 100000), V c main_v3 (ix2 b n) = EdgeLoss.ych C b n)
    (hcl : ∀ n : Fin 100000, V c main_v4 (ix2 (0 : Fin 1) n) = cl n) (t : Fin cfg1.N) :
    (dat1 V c).flushed 3 t = ((cfg1.win 3).blk t).view.read (Elt Ideal) (scores P C cl) := by
  show (cfg1.win 3).cut (grid1.coords t) ((dat1 V c).after 3 t) = _
  rw [after1_3]
  have hN : t.val < 8 := lt_of_lt_of_eq t.isLt (show cfg1.N = 8 from N_1)
  obtain ⟨-, -, -, -, -, -, e0, e1⟩ := idx_facts t
  funext y
  obtain ⟨p, u, rfl⟩ : ∃ (p : Fin 8) (u : Fin 1), y = ix2 p u := ⟨y 0, y 1, eq_ix2 y⟩
  obtain rfl : u = 0 := Subsingleton.elim _ _
  have hb : 8 * t.val + p.val < 64 := by have := p.isLt; omega
  refine (hbody (iblk1 V c 0 t) (iblk1 V c 1 t) (iblk1 V c 2 t) ⟨8 * t.val + p.val, hb⟩ p
    (fun i => (iblk0_apply V c t p i ⟨8 * t.val + p.val, hb⟩ rfl).trans (hP _ i))
    (fun i => (iblk1_apply V c t p i ⟨8 * t.val + p.val, hb⟩ rfl).trans (hC _ i))
    (fun i => (iblk2_apply V c t i).trans (hcl i))).trans ?_
  rw [View.read_apply]
  show EdgeLoss.rowChunks P C cl _ = EdgeLoss.rowChunks P C cl _
  refine congrArg (EdgeLoss.rowChunks P C cl) (Fin.ext ?_)
  show 8 * t.val + p.val = win1_3.index t 0 * 8 + 1 * p.val
  rw [e0]; omega

/-- So the column the region leaves is the column of chunked row scores: the eight blocks cover it. -/
theorem final (c : Dev nD)
    (hP : ∀ (b : Fin 64) (n : Fin 100000), V c main_v1 (ix2 b n) = EdgeLoss.ych P b n)
    (hC : ∀ (b : Fin 64) (n : Fin 100000), V c main_v3 (ix2 b n) = EdgeLoss.ych C b n)
    (hcl : ∀ n : Fin 100000, V c main_v4 (ix2 (0 : Fin 1) n) = cl n) :
    (dat1 V c).arrAt 3 cfg1.N = scores P C cl :=
  (dat1 V c).arrAt_eq_of_cover 3 (scores P C cl) (fun t _ => flushed_eq V P C cl hbody c hP hC hcl t) fun i => by
    have hi0 : (i 0).val < 64 := (i 0).isLt
    have hi1 : (i 1).val < 1 := (i 1).isLt
    have hN : cfg1.N = 8 := N_1
    refine ⟨⟨(i 0).val / 8, by rw [hN]; omega⟩, flush1_3 _, ?_⟩
    rw [mem_blk]
    obtain ⟨-, -, -, -, -, -, e0, e1⟩ := idx_facts ⟨(i 0).val / 8, by rw [hN]; omega⟩
    intro a
    match a with
    | ⟨0, _⟩ => show win1_3.index _ 0 * 8 ≤ (i 0).val ∧ (i 0).val < win1_3.index _ 0 * 8 + 8; rw [e0]; dsimp only; omega
    | ⟨1, _⟩ => show win1_3.index _ 1 * 1 ≤ (i 1).val ∧ (i 1).val < win1_3.index _ 1 * 1 + 1; rw [e1]; omega

end

end Cert.KernelIdeal.KBlocks

end
-- ==== Proof.KRows.lean ====
/-
  The second kernel's body, read at one of its eight rows.

  For each row the body accumulates the row's score chunk by chunk: for every chunk it loads a block of the y
  channel of both arrays (one column wider than the chunk), takes the gaps between neighbouring columns, the
  absolute difference of the two arrays' gaps (the edge weights), multiplies each by the sum of the two column sums
  at the edge's ends, sums along the row and adds the result to the running score. Below: what a slice difference,
  one accumulation step and a load through a column rectangle read at an index; then each named piece of the
  body's arithmetic; then the whole.
-/
import proofs.«140459_j63702954934362_2_alg».proof.Proof.Gen.KernelIdeal.Frame
import proofs.«140459_j63702954934362_2_alg».proof.Proof.Spec
import proofs.«140459_j63702954934362_2_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.KRows

open Idealize.ShloMosaic Idealize.ShloMosaic.ValueIdx

/-! ## The quantities of one chunk -/

/-- The gap between columns `j` and `j + 1` of row `p` of a block. -/
def bgap {n : ℕ} (A : FVec Ideal ⟨2, ![8, n]⟩ .f32) (p : Fin 8) (j : ℕ) (h : j + 1 < n) : EReal :=
  EdgeLoss.mag (A (ix2 p ⟨j + 1, h⟩) - A (ix2 p ⟨j, Nat.lt_of_succ_lt h⟩))

/-- What one chunk of `w` edges adds to row `p`'s score: from the two arrays' blocks `A`, `B` (of `n > w` columns)
    and the two rows of column sums `W1`, `W2` (at the edges' left and right ends). -/
def chunkVal {w n : ℕ} (hn : w < n) (A B : FVec Ideal ⟨2, ![8, n]⟩ .f32) (W1 W2 : FVec Ideal ⟨2, ![1, w]⟩ .f32)
    (p : Fin 8) : EReal :=
  ∑ j : Fin w, EdgeLoss.mag (bgap A p j.val (Nat.lt_of_le_of_lt (Nat.succ_le_of_lt j.isLt) hn)
      - bgap B p j.val (Nat.lt_of_le_of_lt (Nat.succ_le_of_lt j.isLt) hn))
    * (W1 (ix2 (0 : Fin 1) j) + W2 (ix2 (0 : Fin 1) j))

/-! ## The operations, read at an index -/

/-- The absolute difference of a block's two slices one column apart is the gap. -/
theorem slice_gap {w n : ℕ} (y : FVec Ideal ⟨2, ![8, n]⟩ .f32)
    (h1 : (⟨2, ![8, n]⟩ : Shape).Slices ![0, 1] ⟨2, ![8, w]⟩) (h0 : (⟨2, ![8, n]⟩ : Shape).Slices ![0, 0] ⟨2, ![8, w]⟩)
    (p : Fin 8) (j : Fin w) (hj : j.val + 1 < n) :
    absf (subf (extractStridedSlice ⟨2, ![8, w]⟩ ![0, 1] y h1) (extractStridedSlice ⟨2, ![8, w]⟩ ![0, 0] y h0)) (ix2 p j)
      = bgap y p j.val hj := by
  have e1 : extractStridedSlice ⟨2, ![8, w]⟩ ![0, 1] y h1 (ix2 p j) = y (ix2 p ⟨j.val + 1, hj⟩) :=
    extractStridedSlice_apply ![0, 1] y h1 (ix2 p j) (ix2 p ⟨j.val + 1, hj⟩) (fun a => by
      match a with
      | ⟨0, _⟩ => show p.val = 0 + p.val; omega
      | ⟨1, _⟩ => show j.val + 1 = 1 + j.val; omega)
  have e0 : extractStridedSlice ⟨2, ![8, w]⟩ ![0, 0] y h0 (ix2 p j) = y (ix2 p ⟨j.val, Nat.lt_of_succ_lt hj⟩) :=
    extractStridedSlice_apply ![0, 0] y h0 (ix2 p j) (ix2 p ⟨j.val, Nat.lt_of_succ_lt hj⟩) (fun a => by
      match a with
      | ⟨0, _⟩ => show p.val = 0 + p.val; omega
      | ⟨1, _⟩ => show j.val = 0 + j.val; omega)
  show EdgeLoss.mag (extractStridedSlice ⟨2, ![8, w]⟩ ![0, 1] y h1 (ix2 p j)
      - extractStridedSlice ⟨2, ![8, w]⟩ ![0, 0] y h0 (ix2 p j)) = _
  rw [e1, e0]
  rfl

/-- One accumulation step: the running column plus the row sums of a block times a broadcast row. -/
theorem acc_step {w : ℕ} (acc : FVec Ideal S8x1 .f32) (E : FVec Ideal ⟨2, ![8, w]⟩ .f32) (W : FVec Ideal ⟨2, ![1, w]⟩ .f32)
    (hb : (⟨2, ![1, w]⟩ : Shape).Broadcasts ⟨2, ![8, w]⟩) (hr : (⟨2, ![8, w]⟩ : Shape).Reduces [1] S8)
    (hφ : FKind.Formats .f32) (hacc : (0x00000000#32 : BitVec 32) = FKind.add.neutral .f32 hφ)
    (hsc : S8.ShapeCasts S8x1) (p : Fin 8) :
    addf acc (shapeCast S8x1 (multiReduction .add [1] S8 (mulf E (broadcastTo ⟨2, ![8, w]⟩ W hb)) 0x00000000#32 hr hφ hacc) hsc)
        (ix2 p (0 : Fin 1))
      = acc (ix2 p (0 : Fin 1)) + ∑ j : Fin w, E (ix2 p j) * W (ix2 (0 : Fin 1) j) := by
  show acc (ix2 p (0 : Fin 1)) + shapeCast S8x1 (multiReduction .add [1] S8 (mulf E (broadcastTo ⟨2, ![8, w]⟩ W hb))
      0x00000000#32 hr hφ hacc) hsc (ix2 p (0 : Fin 1)) = _
  refine congrArg (acc (ix2 p (0 : Fin 1)) + ·) ?_
  refine (shapeCast_a_a1_apply _ hsc p 0).trans ?_
  refine (multiReduction_add_axis1_apply _ hr hφ hacc p).trans ?_
  refine Finset.sum_congr rfl fun j _ => ?_
  show E (ix2 p j) * broadcastTo ⟨2, ![8, w]⟩ W hb (ix2 p j) = _
  rw [broadcastTo_1b_ab_apply]

/-! ## The named pieces of the body's arithmetic -/

theorem pay3_apply (v : Vec Ideal S8x10001 .f32) (p : Fin 8) (j : Fin 10000) :
    Gen.k1_pay3 (F := Ideal) v (ix2 p j) = bgap v p j.val (by have := j.isLt; omega) := by
  unfold Gen.k1_pay3
  simp only [shapeCast_self]
  exact slice_gap v _ _ p j _

theorem pay2_apply (v1 v3 : Vec Ideal S8x10001 .f32) (v13 v15 : Vec Ideal S1x10000 .f32) (p : Fin 8) :
    Gen.k1_pay2 (F := Ideal) v1 v3 v13 v15 (ix2 p (0 : Fin 1))
      = 0 + chunkVal (w := 10000) (n := 10001) (by decide) v1 v3 v13 v15 p := by
  unfold Gen.k1_pay2
  simp only [shapeCast_self]
  refine (acc_step _ _ _ _ _ _ _ _ p).trans ?_
  refine congrArg₂ (· + ·) ?_ (Finset.sum_congr rfl fun j _ => ?_)
  · show Ideal.ofBits .f32 0x00000000#32 = 0
    exact Ideal.ofBits_zero_f32
  · exact congrArg₂ (· * ·) (congrArg EdgeLoss.mag (congrArg₂ (· - ·) (slice_gap v1 _ _ p j _) (slice_gap v3 _ _ p j _))) rfl

theorem pay4_apply (v : Vec Ideal S8x10001 .f32) (p : Fin 8) (j : Fin 10000) :
    Gen.k1_pay4 (F := Ideal) v (ix2 p j) = bgap v p j.val (by have := j.isLt; omega) := by
  unfold Gen.k1_pay4
  simp only [shapeCast_self]
  exact slice_gap v _ _ p j _

theorem pay8_apply (v : Vec Ideal S8x10001 .f32) (p : Fin 8) (j : Fin 10000) :
    Gen.k1_pay8 (F := Ideal) v (ix2 p j) = bgap v p j.val (by have := j.isLt; omega) := by
  unfold Gen.k1_pay8
  simp only [shapeCast_self]
  exact slice_gap v _ _ p j _

theorem pay9_apply (v : Vec Ideal S8x10001 .f32) (p : Fin 8) (j : Fin 10000) :
    Gen.k1_pay9 (F := Ideal) v (ix2 p j) = bgap v p j.val (by have := j.isLt; omega) := by
  unfold Gen.k1_pay9
  simp only [shapeCast_self]
  exact slice_gap v _ _ p j _

theorem pay12_apply (v : Vec Ideal S8x10001 .f32) (p : Fin 8) (j : Fin 10000) :
    Gen.k1_pay12 (F := Ideal) v (ix2 p j) = bgap v p j.val (by have := j.isLt; omega) := by
  unfold Gen.k1_pay12
  simp only [shapeCast_self]
  exact slice_gap v _ _ p j _

theorem pay5_eq (v : Vec Ideal S1x10000 .f32) : Gen.k1_pay5 (F := Ideal) v = v := by
  unfold Gen.k1_pay5
  exact shapeCast_self v _

theorem pay6_eq (v : Vec Ideal S1x10000 .f32) : Gen.k1_pay6 (F := Ideal) v = v := by
  unfold Gen.k1_pay6
  exact shapeCast_self v _

theorem pay11_eq (v : Vec Ideal S8x10001 .f32) : Gen.k1_pay11 (F := Ideal) v = v := by
  unfold Gen.k1_pay11
  exact shapeCast_self v _

theorem pay14_eq (v : Vec Ideal S8x10001 .f32) : Gen.k1_pay14 (F := Ideal) v = v := by
  unfold Gen.k1_pay14
  exact shapeCast_self v _

theorem pay1_apply (acc : FVec Ideal S8x1 .f32) (A B : Vec Ideal S8x10000 .f32) (W1 W2 : Vec Ideal S1x9999 .f32) (p : Fin 8) :
    Gen.k1_pay1 (F := Ideal) acc A B W1 W2 (ix2 p (0 : Fin 1))
      = acc (ix2 p (0 : Fin 1)) + chunkVal (w := 9999) (n := 10000) (by decide) A B W1 W2 p := by
  unfold Gen.k1_pay1
  simp only [shapeCast_self]
  refine (acc_step _ _ _ _ _ _ _ _ p).trans ?_
  refine congrArg (acc (ix2 p (0 : Fin 1)) + ·) (Finset.sum_congr rfl fun j _ => ?_)
  exact (congrArg₂ (· * ·) (congrArg EdgeLoss.mag (congrArg₂ (· - ·) (slice_gap A _ _ p j _) (slice_gap B _ _ p j _))) rfl)

theorem pay7_apply (acc : FVec Ideal S8x1 .f32) (A B A' B' : Vec Ideal S8x10001 .f32) (W1 W2 W1' W2' : Vec Ideal S1x10000 .f32) (p : Fin 8) :
    Gen.k1_pay7 (F := Ideal) acc (Gen.k1_pay3 A) (Gen.k1_pay4 B) (Gen.k1_pay5 W1) (Gen.k1_pay6 W2) A' B' W1' W2' (ix2 p (0 : Fin 1))
      = (acc (ix2 p (0 : Fin 1)) + chunkVal (w := 10000) (n := 10001) (by decide) A B W1 W2 p)
        + chunkVal (w := 10000) (n := 10001) (by decide) A' B' W1' W2' p := by
  unfold Gen.k1_pay7
  simp only [shapeCast_self, pay5_eq, pay6_eq, pay11_eq, pay14_eq]
  refine (acc_step _ _ _ _ _ _ _ _ p).trans ?_
  refine congrArg₂ (· + ·) ?_ (Finset.sum_congr rfl fun j _ => ?_)
  · refine (acc_step _ _ _ _ _ _ _ _ p).trans ?_
    refine congrArg (acc (ix2 p (0 : Fin 1)) + ·) (Finset.sum_congr rfl fun j _ => ?_)
    exact (congrArg₂ (· * ·) (congrArg EdgeLoss.mag (congrArg₂ (· - ·) (pay3_apply A p j) (pay4_apply B p j))) rfl)
  · exact (congrArg₂ (· * ·) (congrArg EdgeLoss.mag (congrArg₂ (· - ·) (slice_gap A' _ _ p j _) (slice_gap B' _ _ p j _))) rfl)

theorem pay10_apply (acc : FVec Ideal S8x1 .f32) (A B A' B' : Vec Ideal S8x10001 .f32) (W1 W2 W1' W2' : Vec Ideal S1x10000 .f32) (p : Fin 8) :
    Gen.k1_pay10 (F := Ideal) acc (Gen.k1_pay8 A) (Gen.k1_pay9 B) W1 W2 A' B' W1' W2' (ix2 p (0 : Fin 1))
      = (acc (ix2 p (0 : Fin 1)) + chunkVal (w := 10000) (n := 10001) (by decide) A B W1 W2 p)
        + chunkVal (w := 10000) (n := 10001) (by decide) A' B' W1' W2' p := by
  unfold Gen.k1_pay10
  simp only [shapeCast_self, pay5_eq, pay6_eq, pay11_eq, pay14_eq]
  refine (acc_step _ _ _ _ _ _ _ _ p).trans ?_
  refine congrArg₂ (· + ·) ?_ (Finset.sum_congr rfl fun j _ => ?_)
  · refine (acc_step _ _ _ _ _ _ _ _ p).trans ?_
    refine congrArg (acc (ix2 p (0 : Fin 1)) + ·) (Finset.sum_congr rfl fun j _ => ?_)
    exact (congrArg₂ (· * ·) (congrArg EdgeLoss.mag (congrArg₂ (· - ·) (pay8_apply A p j) (pay9_apply B p j))) rfl)
  · exact (congrArg₂ (· * ·) (congrArg EdgeLoss.mag (congrArg₂ (· - ·) (slice_gap A' _ _ p j _) (slice_gap B' _ _ p j _))) rfl)

theorem pay13_apply (acc : FVec Ideal S8x1 .f32) (A B A' B' : Vec Ideal S8x10001 .f32) (W1 W2 W1' W2' : Vec Ideal S1x10000 .f32) (p : Fin 8) :
    Gen.k1_pay13 (F := Ideal) acc (Gen.k1_pay11 B) (Gen.k1_pay12 A) W1 W2 A' B' W1' W2' (ix2 p (0 : Fin 1))
      = (acc (ix2 p (0 : Fin 1)) + chunkVal (w := 10000) (n := 10001) (by decide) A B W1 W2 p)
        + chunkVal (w := 10000) (n := 10001) (by decide) A' B' W1' W2' p := by
  unfold Gen.k1_pay13
  simp only [shapeCast_self, pay5_eq, pay6_eq, pay11_eq, pay14_eq]
  refine (acc_step _ _ _ _ _ _ _ _ p).trans ?_
  refine congrArg₂ (· + ·) ?_ (Finset.sum_congr rfl fun j _ => ?_)
  · refine (acc_step _ _ _ _ _ _ _ _ p).trans ?_
    refine congrArg (acc (ix2 p (0 : Fin 1)) + ·) (Finset.sum_congr rfl fun j _ => ?_)
    exact (congrArg₂ (· * ·) (congrArg EdgeLoss.mag (congrArg₂ (· - ·) (pay12_apply A p j) (slice_gap B _ _ p j _))) rfl)
  · exact (congrArg₂ (· * ·) (congrArg EdgeLoss.mag (congrArg₂ (· - ·) (slice_gap A' _ _ p j _) (slice_gap B' _ _ p j _))) rfl)

theorem pay15_apply (acc : FVec Ideal S8x1 .f32) (A B A' B' : Vec Ideal S8x10001 .f32) (W1 W2 W1' W2' : Vec Ideal S1x10000 .f32) (p : Fin 8) :
    Gen.k1_pay15 (F := Ideal) acc (Gen.k1_pay14 A) B W1 W2 A' B' W1' W2' (ix2 p (0 : Fin 1))
      = (acc (ix2 p (0 : Fin 1)) + chunkVal (w := 10000) (n := 10001) (by decide) A B W1 W2 p)
        + chunkVal (w := 10000) (n := 10001) (by decide) A' B' W1' W2' p := by
  unfold Gen.k1_pay15
  simp only [shapeCast_self, pay5_eq, pay6_eq, pay11_eq, pay14_eq]
  refine (acc_step _ _ _ _ _ _ _ _ p).trans ?_
  refine congrArg₂ (· + ·) ?_ (Finset.sum_congr rfl fun j _ => ?_)
  · refine (acc_step _ _ _ _ _ _ _ _ p).trans ?_
    refine congrArg (acc (ix2 p (0 : Fin 1)) + ·) (Finset.sum_congr rfl fun j _ => ?_)
    exact (congrArg₂ (· * ·) (congrArg EdgeLoss.mag (congrArg₂ (· - ·) (slice_gap A _ _ p j _) (slice_gap B _ _ p j _))) rfl)
  · exact (congrArg₂ (· * ·) (congrArg EdgeLoss.mag (congrArg₂ (· - ·) (slice_gap A' _ _ p j _) (slice_gap B' _ _ p j _))) rfl)

/-! ## Loads through a column rectangle -/

/-- A block of `n` columns from column `off` of an eight-row array, read at `(p, j)`, is the array at `(p, off + j)`. -/
theorem ld8_apply {n : ℕ} (X : Vec Ideal S8x100000 .f32) (off : ℕ)
    (inb : ∀ a, (![0, off] : Fin 2 → ℕ) a + (⟨2, ![8, n]⟩ : Shape).size a ≤ S8x100000.size a)
    (p : Fin 8) (j : ℕ) (hj : j < n) (h : off + j < 100000) :
    View.ld X (Rect.unit (s := S8x100000) ![0, off] (⟨2, ![8, n]⟩ : Shape).size inb) (ix2 p (⟨j, hj⟩ : Fin n))
      = X (ix2 p (⟨off + j, h⟩ : Fin 100000)) := by
  show X _ = X _
  congr 1
  funext a
  apply Fin.ext
  match a with
  | ⟨0, _⟩ => show 0 + 1 * p.val = p.val; omega
  | ⟨1, _⟩ => show off + 1 * j = off + j; omega

/-- The same for the one-row array of column sums. -/
theorem ld1_apply {w : ℕ} (X : Vec Ideal S1x100000 .f32) (off : ℕ)
    (inb : ∀ a, (![0, off] : Fin 2 → ℕ) a + (⟨2, ![1, w]⟩ : Shape).size a ≤ S1x100000.size a)
    (j : Fin w) (h : off + j.val < 100000) :
    View.ld X (Rect.unit (s := S1x100000) ![0, off] (⟨2, ![1, w]⟩ : Shape).size inb) (ix2 (0 : Fin 1) j)
      = X (ix2 (0 : Fin 1) (⟨off + j.val, h⟩ : Fin 100000)) := by
  show X _ = X _
  congr 1
  funext a
  apply Fin.ext
  match a with
  | ⟨0, _⟩ => rfl
  | ⟨1, _⟩ => show off + 1 * j.val = off + j.val; omega

/-! ## One chunk against the specification -/

/-- The chunk of `w` edges from column `off`, computed from the blocks loaded for it, is the sum of the
    specification's edge terms `off … off + w - 1` of the row. -/
theorem chunk_ld {w n : ℕ} (hn : w < n) (x0 x1 : Vec Ideal S8x100000 .f32) (x2 : Vec Ideal S1x100000 .f32)
    (P C : EdgeLoss.T3.Idx → EReal) (cl : Fin 100000 → EReal) (b : Fin 64) (p : Fin 8)
    (hx0 : ∀ i : Fin 100000, x0 (ix2 p i) = EdgeLoss.ych P b i) (hx1 : ∀ i : Fin 100000, x1 (ix2 p i) = EdgeLoss.ych C b i)
    (hx2 : ∀ i : Fin 100000, x2 (ix2 (0 : Fin 1) i) = cl i)
    (off off1 : ℕ) (h1 : off1 = off + 1) (hoff : off + n ≤ 100000)
    (inbA : ∀ a, (![0, off] : Fin 2 → ℕ) a + (⟨2, ![8, n]⟩ : Shape).size a ≤ S8x100000.size a)
    (inb1 : ∀ a, (![0, off] : Fin 2 → ℕ) a + (⟨2, ![1, w]⟩ : Shape).size a ≤ S1x100000.size a)
    (inb2 : ∀ a, (![0, off1] : Fin 2 → ℕ) a + (⟨2, ![1, w]⟩ : Shape).size a ≤ S1x100000.size a) :
    chunkVal hn (View.ld x1 (Rect.unit (s := S8x100000) ![0, off] (⟨2, ![8, n]⟩ : Shape).size inbA))
        (View.ld x0 (Rect.unit (s := S8x100000) ![0, off] (⟨2, ![8, n]⟩ : Shape).size inbA))
        (View.ld x2 (Rect.unit (s := S1x100000) ![0, off] (⟨2, ![1, w]⟩ : Shape).size inb1))
        (View.ld x2 (Rect.unit (s := S1x100000) ![0, off1] (⟨2, ![1, w]⟩ : Shape).size inb2)) p
      = ∑ j : Fin w, EdgeLoss.edgeTerm P C cl b (off + j.val) (by have := j.isLt; omega) := by
  subst h1
  unfold chunkVal
  refine Finset.sum_congr rfl fun j _ => ?_
  have hj := j.isLt
  have a1 : View.ld x1 (Rect.unit (s := S8x100000) ![0, off] (⟨2, ![8, n]⟩ : Shape).size inbA) (ix2 p (⟨j.val + 1, by omega⟩ : Fin n))
      = EdgeLoss.ych C b ⟨off + j.val + 1, by omega⟩ := by
    rw [ld8_apply x1 off inbA p (j.val + 1) (by omega) (by omega), hx1]
    exact congrArg (EdgeLoss.ych C b) (Fin.ext (by show off + (j.val + 1) = off + j.val + 1; omega))
  have a0 : View.ld x1 (Rect.unit (s := S8x100000) ![0, off] (⟨2, ![8, n]⟩ : Shape).size inbA) (ix2 p (⟨j.val, by omega⟩ : Fin n))
      = EdgeLoss.ych C b ⟨off + j.val, by omega⟩ := by
    rw [ld8_apply x1 off inbA p j.val (by omega) (by omega), hx1]
  have b1 : View.ld x0 (Rect.unit (s := S8x100000) ![0, off] (⟨2, ![8, n]⟩ : Shape).size inbA) (ix2 p (⟨j.val + 1, by omega⟩ : Fin n))
      = EdgeLoss.ych P b ⟨off + j.val + 1, by omega⟩ := by
    rw [ld8_apply x0 off inbA p (j.val + 1) (by omega) (by omega), hx0]
    exact congrArg (EdgeLoss.ych P b) (Fin.ext (by show off + (j.val + 1) = off + j.val + 1; omega))
  have b0 : View.ld x0 (Rect.unit (s := S8x100000) ![0, off] (⟨2, ![8, n]⟩ : Shape).size inbA) (ix2 p (⟨j.val, by omega⟩ : Fin n))
      = EdgeLoss.ych P b ⟨off + j.val, by omega⟩ := by
    rw [ld8_apply x0 off inbA p j.val (by omega) (by omega), hx0]
  have c1 : View.ld x2 (Rect.unit (s := S1x100000) ![0, off] (⟨2, ![1, w]⟩ : Shape).size inb1) (ix2 (0 : Fin 1) j)
      = cl ⟨off + j.val, by omega⟩ := by
    rw [ld1_apply x2 off inb1 j (by omega), hx2]
  have c2 : View.ld x2 (Rect.unit (s := S1x100000) ![0, off + 1] (⟨2, ![1, w]⟩ : Shape).size inb2) (ix2 (0 : Fin 1) j)
      = cl ⟨off + j.val + 1, by omega⟩ := by
    rw [ld1_apply x2 (off + 1) inb2 j (by omega), hx2]
    exact congrArg cl (Fin.ext (by show off + 1 + j.val = off + j.val + 1; omega))
  exact congrArg₂ (· * ·)
    (congrArg EdgeLoss.mag (congrArg₂ (· - ·) (congrArg EdgeLoss.mag (congrArg₂ (· - ·) a1 a0))
      (congrArg EdgeLoss.mag (congrArg₂ (· - ·) b1 b0))))
    (congrArg₂ (· + ·) c1 c2)

/-! ## The whole body at a row -/

theorem out_apply (x0 x1 : Vec Ideal S8x100000 .f32) (x2 : Vec Ideal S1x100000 .f32) (P C : EdgeLoss.T3.Idx → EReal)
    (cl : Fin 100000 → EReal) (b : Fin 64) (p : Fin 8)
    (hx0 : ∀ i : Fin 100000, x0 (ix2 p i) = EdgeLoss.ych P b i) (hx1 : ∀ i : Fin 100000, x1 (ix2 p i) = EdgeLoss.ych C b i)
    (hx2 : ∀ i : Fin 100000, x2 (ix2 (0 : Fin 1) i) = cl i) :
    Gen.out1_3 (F := Ideal) x0 x1 x2 (ix2 p (0 : Fin 1)) = EdgeLoss.rowChunks P C cl b := by
  have hz : (![0, 0] : Fin 2 → ℕ) = fun _ => 0 := by
    funext a
    match a with
    | ⟨0, _⟩ => rfl
    | ⟨1, _⟩ => rfl
  have h0 : chunkVal (w := 10000) (n := 10001) (by decide) (View.ld x1 Gen.r1_0) (View.ld x0 Gen.r1_0) (View.ld x2 Gen.r1_1) (View.ld x2 Gen.r1_2) p
      = EdgeLoss.chunkSum P C cl b 0 (by decide) :=
    chunk_ld (w := 10000) (n := 10001) (by decide) x0 x1 x2 P C cl b p hx0 hx1 hx2 0 1 rfl (by decide) _ _ _
  have h1 : chunkVal (w := 10000) (n := 10001) (by decide) (View.ld x1 Gen.r1_3) (View.ld x0 Gen.r1_3) (View.ld x2 Gen.r1_4) (View.ld x2 Gen.r1_5) p
      = EdgeLoss.chunkSum P C cl b 1 (by decide) :=
    chunk_ld (w := 10000) (n := 10001) (by decide) x0 x1 x2 P C cl b p hx0 hx1 hx2 10000 10001 rfl (by decide) _ _ _
  have h2 : chunkVal (w := 10000) (n := 10001) (by decide) (View.ld x1 Gen.r1_6) (View.ld x0 Gen.r1_6) (View.ld x2 Gen.r1_7) (View.ld x2 Gen.r1_8) p
      = EdgeLoss.chunkSum P C cl b 2 (by decide) :=
    chunk_ld (w := 10000) (n := 10001) (by decide) x0 x1 x2 P C cl b p hx0 hx1 hx2 20000 20001 rfl (by decide) _ _ _
  have h3 : chunkVal (w := 10000) (n := 10001) (by decide) (View.ld x1 Gen.r1_9) (View.ld x0 Gen.r1_9) (View.ld x2 Gen.r1_10) (View.ld x2 Gen.r1_11) p
      = EdgeLoss.chunkSum P C cl b 3 (by decide) :=
    chunk_ld (w := 10000) (n := 10001) (by decide) x0 x1 x2 P C cl b p hx0 hx1 hx2 30000 30001 rfl (by decide) _ _ _
  have h4 : chunkVal (w := 10000) (n := 10001) (by decide) (View.ld x1 Gen.r1_12) (View.ld x0 Gen.r1_12) (View.ld x2 Gen.r1_13) (View.ld x2 Gen.r1_14) p
      = EdgeLoss.chunkSum P C cl b 4 (by decide) :=
    chunk_ld (w := 10000) (n := 10001) (by decide) x0 x1 x2 P C cl b p hx0 hx1 hx2 40000 40001 rfl (by decide) _ _ _
  have h5 : chunkVal (w := 10000) (n := 10001) (by decide) (View.ld x1 Gen.r1_15) (View.ld x0 Gen.r1_15) (View.ld x2 Gen.r1_16) (View.ld x2 Gen.r1_17) p
      = EdgeLoss.chunkSum P C cl b 5 (by decide) :=
    chunk_ld (w := 10000) (n := 10001) (by decide) x0 x1 x2 P C cl b p hx0 hx1 hx2 50000 50001 rfl (by decide) _ _ _
  have h6 : chunkVal (w := 10000) (n := 10001) (by decide) (View.ld x1 Gen.r1_18) (View.ld x0 Gen.r1_18) (View.ld x2 Gen.r1_19) (View.ld x2 Gen.r1_20) p
      = EdgeLoss.chunkSum P C cl b 6 (by decide) :=
    chunk_ld (w := 10000) (n := 10001) (by decide) x0 x1 x2 P C cl b p hx0 hx1 hx2 60000 60001 rfl (by decide) _ _ _
  have h7 : chunkVal (w := 10000) (n := 10001) (by decide) (View.ld x1 Gen.r1_21) (View.ld x0 Gen.r1_21) (View.ld x2 Gen.r1_22) (View.ld x2 Gen.r1_23) p
      = EdgeLoss.chunkSum P C cl b 7 (by decide) :=
    chunk_ld (w := 10000) (n := 10001) (by decide) x0 x1 x2 P C cl b p hx0 hx1 hx2 70000 70001 rfl (by decide) _ _ _
  have h8 : chunkVal (w := 10000) (n := 10001) (by decide) (View.ld x1 Gen.r1_24) (View.ld x0 Gen.r1_24) (View.ld x2 Gen.r1_25) (View.ld x2 Gen.r1_26) p
      = EdgeLoss.chunkSum P C cl b 8 (by decide) :=
    chunk_ld (w := 10000) (n := 10001) (by decide) x0 x1 x2 P C cl b p hx0 hx1 hx2 80000 80001 rfl (by decide) _ _ _
  have h9 : chunkVal (w := 9999) (n := 10000) (by decide) (View.ld x1 Gen.r1_27) (View.ld x0 Gen.r1_27) (View.ld x2 Gen.r1_28) (View.ld x2 Gen.r1_29) p
      = EdgeLoss.lastSum P C cl b :=
    chunk_ld (w := 9999) (n := 10000) (by decide) x0 x1 x2 P C cl b p hx0 hx1 hx2 90000 90001 rfl (by decide) _ _ _
  unfold Gen.out1_3
  rw [View.canon_unit_zero hz]
  rw [pay1_apply, pay15_apply, pay13_apply, pay10_apply, pay7_apply, pay2_apply]
  rw [h0, h1, h2, h3, h4, h5, h6, h7, h8, h9]
  rfl

end Cert.KernelIdeal.KRows

end
-- ==== Proof.KHost.lean ====
/-
  The host operations of the kernel program around its two regions.
  Before the regions: the y channel of each of the two [64, 100000, 2] arrays (a slice of channel 1, reshaped to
  [64, 100000]); the labels are passed through unchanged.
  After the regions: the regions leave the column sums as a row [1, 100000] and the row scores as a column [64, 1];
  the host totals the column sums, divides each row score by that total and takes the mean of the 64 quotients.
  That is the common tail of the specification, applied to the row scores and to the total of the column sums.
-/
import proofs.«140459_j63702954934362_2_alg».proof.Proof.Gen.KernelIdeal.Frame
import proofs.«140459_j63702954934362_2_alg».proof.Proof.Spec
import proofs.«140459_j63702954934362_2_alg».proof.Proof.LibKeepdims
import Idealize.ShloMosaic.Lib.ValueIdx
import Idealize.ShloMosaic.Lib.IdealHost
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.KHost

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

variable (m : (ℓ : Loc nD τ sig) → Buf (Elt Ideal) ℓ) (ρ : Dev nD → PrngReg)

/-! ## Before the regions -/

/-- Channel 1 of a [64, 100000, 2] array, reshaped to [64, 100000], at (b, n) is the array's y entry there. -/
theorem ychannel_at (A : EdgeLoss.T3.Idx → EReal) (b : Fin 64) (n : Fin 100000) :
    shapeCast S64x100000 (extractStridedSlice S64x100000x1 ![0, 0, 1] A slices_S64x100000x2_S64x100000x1_0_0_1)
        shapeCasts_S64x100000x1_S64x100000 (ix2 b n) = EdgeLoss.ych A b n := by
  have hb := b.isLt; have hn := n.isLt
  rw [shapeCast_apply _ shapeCasts_S64x100000x1_S64x100000 (ix2 b n) (ix3 b n (0 : Fin 1))
    (by rw [Shape.rowMajor_val_three, Shape.rowMajor_val_two]
        show (b.val * 100000 + n.val) * 1 + 0 = b.val * 100000 + n.val; omega)]
  rw [extractStridedSlice_apply ![0, 0, 1] A slices_S64x100000x2_S64x100000x1_0_0_1 (ix3 b n (0 : Fin 1))
    (ix3 b n (1 : Fin 2)) (fun a => by
      match a with
      | ⟨0, _⟩ => show b.val = 0 + b.val; omega
      | ⟨1, _⟩ => show n.val = 0 + n.val; omega
      | ⟨2, _⟩ => rfl)]
  rfl

/-- At the first region's entry the first array's y channel is in place. -/
theorem entry_yp (c : Dev nD) (b : Fin 64) (n : Fin 100000) :
    V1 m ρ c main_v1 (ix2 b n) = EdgeLoss.ych (m ((c : Thread nD τ).loc main_arg0)) b n := by
  have e : (V1 m ρ c main_v1 : S64x100000.Idx → EReal)
      = shapeCast S64x100000 (extractStridedSlice S64x100000x1 ![0, 0, 1] (m ((c : Thread nD τ).loc main_arg0))
          slices_S64x100000x2_S64x100000x1_0_0_1) shapeCasts_S64x100000x1_S64x100000 := by
    dsimp only [V1, W1, hostOps0]; after_results; rfl
  rw [e]
  exact ychannel_at _ b n

/-- At the first region's entry the second array's y channel is in place. -/
theorem entry_yc (c : Dev nD) (b : Fin 64) (n : Fin 100000) :
    V1 m ρ c main_v3 (ix2 b n) = EdgeLoss.ych (m ((c : Thread nD τ).loc main_arg1)) b n := by
  have e : (V1 m ρ c main_v3 : S64x100000.Idx → EReal)
      = shapeCast S64x100000 (extractStridedSlice S64x100000x1 ![0, 0, 1] (m ((c : Thread nD τ).loc main_arg1))
          slices_S64x100000x2_S64x100000x1_0_0_1) shapeCasts_S64x100000x1_S64x100000 := by
    dsimp only [V1, W1, hostOps0]; after_results; rfl
  rw [e]
  exact ychannel_at _ b n

/-- The labels reach the first region as launched. -/
theorem entry_labels (c : Dev nD) : V1 m ρ c main_arg2 = m ((c : Thread nD τ).loc main_arg2) := by
  show StableHlo.after hostOps0 (W0 m ρ c) (Proc.devRef .tc main_arg2) = _
  after_results

/-! ## After the regions -/

/-- The column [64, 1] of row scores reshaped to [64]: entry i is the column's entry (i, 0). -/
theorem column_flat (v5 : S64x1.Idx → EReal) :
    shapeCast S64 v5 shapeCasts_S64x1_S64 = fun i => v5 (ix2 (i 0) (0 : Fin 1)) := by
  funext i
  exact shapeCast_apply v5 shapeCasts_S64x1_S64 i (ix2 (i 0) (0 : Fin 1))
    (by rw [Shape.rowMajor_val_two, Shape.rowMajor_val_one]
        show (i 0).val * 1 + 0 = (i 0).val; omega)

/-- The row [1, 100000] of column sums totalled over both axes: zero plus the sum of its 100000 entries. -/
theorem row_total (v4 : S1x100000.Idx → EReal) :
    Host.reduceAdd (F := Ideal) (φ := .f32) v4 (constant (F := Ideal) S_ .f32 0x00000000#32)
        reducesTo_S1x100000_S_d0_1 h_S_
      = fun _ => EdgeLoss.totCols (fun n => v4 (ix2 (0 : Fin 1) n)) := by
  funext j
  rw [hostReduceAdd_apply, Ideal.hostReduceAdd_total reducesTo_S1x100000_S_d0_1 (fun b => b.elim0), constant_apply,
    Ideal.ofBits_zero_f32, sum_idx2, Fin.sum_univ_one]
  rfl

/-- The host operations after the regions, over any row of column sums and any column of row scores, are the
    common tail of the row scores and the total of the column sums. -/
theorem tail_of (v4 : S1x100000.Idx → EReal) (v5 : S64x1.Idx → EReal) :
    Host.divf (F := Ideal) (φ := .f32)
        (Host.reduceAdd (F := Ideal) (φ := .f32)
          (Host.divf (F := Ideal) (φ := .f32) (shapeCast S64 v5 shapeCasts_S64x1_S64)
            (broadcastInDim S64 ![] bcast_S_S64
              (Host.reduceAdd (F := Ideal) (φ := .f32) v4 (constant (F := Ideal) S_ .f32 0x00000000#32)
                reducesTo_S1x100000_S_d0_1 h_S_)))
          (constant (F := Ideal) S_ .f32 0x00000000#32) reducesTo_S64_S_d0 h_S_)
        (constant (F := Ideal) S_ .f32 0x42800000#32)
      = EdgeLoss.tail (fun i => v5 (ix2 (i 0) (0 : Fin 1)))
          (fun _ => EdgeLoss.totCols (fun n => v4 (ix2 (0 : Fin 1) n))) := by
  rw [column_flat, row_total]
  rfl

/-- The program's result: the common tail of the row scores and the total of the column sums the regions left. -/
theorem tail_eq (c : Dev nD) :
    W4 m ρ c (Proc.devRef .tc main_v11)
      = EdgeLoss.tail (fun i => W3 m ρ c (Proc.devRef .tc main_v5) (ix2 (i 0) (0 : Fin 1)))
          (fun _ => EdgeLoss.totCols (fun n => W3 m ρ c (Proc.devRef .tc main_v4) (ix2 (0 : Fin 1) n))) := by
  show StableHlo.after hostOps2 (W3 m ρ c) (Proc.devRef .tc main_v11) = _
  generalize W3 m ρ c = w
  after_results
  exact tail_of (w (Proc.devRef .tc main_v4)) (w (Proc.devRef .tc main_v5))

end Cert.KernelIdeal.KHost

end
-- ==== Proof.KValue.lean ====
/-
  The idealized kernel's result, as a formula of its three argument arrays.

  Through @main's four segments: the host slices leave the y channels of `pred` and `coords` (the region's first two
  arrays); the first region leaves the column sums of `labels`, accumulated eight rows at a time; the second region,
  which reads the y channels and those column sums, leaves the column of row scores, each chunk by chunk; and the host
  tail divides each score by the total of the column sums and takes the mean. So the run ends with the result at
  `EdgeLoss.tail` of the chunked row scores and the total of the blockwise column sums.
-/
import proofs.«140459_j63702954934362_2_alg».proof.Proof.KRun
import proofs.«140459_j63702954934362_2_alg».proof.Proof.KColsAt
import proofs.«140459_j63702954934362_2_alg».proof.Proof.KBlocks
import proofs.«140459_j63702954934362_2_alg».proof.Proof.KRows
import proofs.«140459_j63702954934362_2_alg».proof.Proof.KHost

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The three argument arrays as launched. -/
abbrev pred (c : Dev nD) : EdgeLoss.T3.Idx → EReal := m ((c : Thread nD τ).loc main_arg0)
abbrev coords (c : Dev nD) : EdgeLoss.T3.Idx → EReal := m ((c : Thread nD τ).loc main_arg1)
abbrev labels (c : Dev nD) : EdgeLoss.T2.Idx → EReal := m ((c : Thread nD τ).loc main_arg2)

/-- The second region finds the y channel of `pred` in its first array: the first region does not touch it. -/
theorem yp_at (c : Dev nD) (b : Fin 64) (n : Fin 100000) :
    V2 m ρ c main_v1 (ix2 b n) = EdgeLoss.ych (pred m c) b n :=
  (congrFun (W2_of_ne m ρ c main_v1 (by decide)) (ix2 b n)).trans (KHost.entry_yp m ρ c b n)

/-- … and the y channel of `coords` in its second. -/
theorem yc_at (c : Dev nD) (b : Fin 64) (n : Fin 100000) :
    V2 m ρ c main_v3 (ix2 b n) = EdgeLoss.ych (coords m c) b n :=
  (congrFun (W2_of_ne m ρ c main_v3 (by decide)) (ix2 b n)).trans (KHost.entry_yc m ρ c b n)

/-- … and, in its third, the column sums the first region left. -/
theorem cols_at (c : Dev nD) (n : Fin 100000) :
    V2 m ρ c main_v4 (ix2 (0 : Fin 1) n) = EdgeLoss.colBlocks (labels m c) n :=
  (congrFun (W2_arr m ρ c 1) (ix2 (0 : Fin 1) n)).trans
    ((KCols.final_apply (V1 m ρ) c n).trans
      (congrArg (fun L : EdgeLoss.T2.Idx → EReal => EdgeLoss.colBlocks L n) (KHost.entry_labels m ρ c)))

/-- The column of row scores the second region leaves. -/
theorem scores_eq (c : Dev nD) :
    W3 m ρ c (Proc.devRef .tc main_v5)
      = KBlocks.scores (pred m c) (coords m c) (EdgeLoss.colBlocks (labels m c)) :=
  (W3_arr m ρ c 3).trans
    (KBlocks.final (V2 m ρ) (pred m c) (coords m c) (EdgeLoss.colBlocks (labels m c))
      (fun x0 x1 x2 b p h0 h1 h2 => KRows.out_apply x0 x1 x2 (pred m c) (coords m c) (EdgeLoss.colBlocks (labels m c)) b p h0 h1 h2)
      c (yp_at m ρ c) (yc_at m ρ c) (cols_at m ρ c))

/-- The second region only reads the row of column sums: it leaves it as it found it. -/
theorem cols3_at (c : Dev nD) (n : Fin 100000) :
    W3 m ρ c (Proc.devRef .tc main_v4) (ix2 (0 : Fin 1) n) = EdgeLoss.colBlocks (labels m c) n :=
  (congrFun ((W3_arr m ρ c 2).trans (((dat1 (V2 m ρ) c).arrAt_in 2 rfl _).trans (A_eq1 (V2 m ρ) c 2))) (ix2 (0 : Fin 1) n)).trans
    (cols_at m ρ c n)

/-- The result buffer's last contents. -/
theorem result_eq (c : Dev nD) :
    W4 m ρ c (Proc.devRef .tc main_v11)
      = EdgeLoss.tail (fun i => EdgeLoss.rowChunks (pred m c) (coords m c) (EdgeLoss.colBlocks (labels m c)) (i 0))
          (fun _ => EdgeLoss.totCols (EdgeLoss.colBlocks (labels m c))) := by
  have h : (fun n => W3 m ρ c (Proc.devRef .tc main_v4) (ix2 (0 : Fin 1) n)) = EdgeLoss.colBlocks (labels m c) :=
    funext (cols3_at m ρ c)
  rw [KHost.tail_eq m ρ c, scores_eq m ρ c, h]
  rfl

/-- The run, read: the result at the formula, the arguments unchanged. -/
theorem run : θ_run defs (onTc (τ := τ) (main (F := Ideal))) ⟨m, fun _ => 0, ρ⟩ (fun r => ∀ c : Dev nD,
      r.2.mem ((c.tc : Thread nD τ).loc main_v11)
        = EdgeLoss.tail (fun i => EdgeLoss.rowChunks (pred m c) (coords m c) (EdgeLoss.colBlocks (labels m c)) (i 0))
            (fun _ => EdgeLoss.totCols (EdgeLoss.colBlocks (labels m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (KRun.run_named m ρ)

end Cert.KernelIdeal.KValue

end
-- ==== Proof.RefValue.lean ====
/-
  The reference program read as a formula. Its stages, in order: the y channel of an array (a slice of channel 1
  and a reshape); the gaps |y(b,e+1) - y(b,e)| of neighbouring positions (two shifted slices, a difference, an absolute
  value); the gaps padded with a zero in front (the gap BEFORE each position) and with a zero behind (the gap AFTER each
  position), joined as the two channels of one array; the absolute difference of the two arrays' joined gaps, summed
  over the two channels; the column sums of the labels over the 64 rows; their product summed along each row; and the
  total of the labels. Each stage is read at an index given by its coordinates, and the row score and the total come
  out as the position-by-position formulas of the specification.
-/
import proofs.«140459_j63702954934362_2_alg».proof.Proof.Gen.ReferenceIdeal.Read
import proofs.«140459_j63702954934362_2_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-- An array of shape [64, 100000, 2] at the ideal values. -/
abbrev A3 : Type := EdgeLoss.T3.Idx → EReal
/-- An array of shape [64, 100000] at the ideal values. -/
abbrev A2 : Type := EdgeLoss.T2.Idx → EReal

/-! ## The y channel -/

/-- The slice of channel 1, reshaped to [64, 100000], at (b, n) is the array's y entry there. -/
theorem ych_at (A : A3) (b : Fin 64) (n : Fin 100000) :
    Read.val_main_v1 (F := Ideal) A (ix2 b n) = EdgeLoss.ych A b n := by
  rw [Read.val_main_v1_apply, Read.val_main_v0_apply]
  unfold EdgeLoss.ych
  refine congrArg A (funext fun a => Fin.ext ?_)
  have hb := b.isLt; have hn := n.isLt
  match a with
  | ⟨0, _⟩ => show (b.val * 100000 + n.val) / 100000 = b.val; omega
  | ⟨1, _⟩ => show (b.val * 100000 + n.val) / 1 % 100000 = n.val; omega
  | ⟨2, _⟩ => rfl

/-! ## The gaps between neighbours -/

/-- The absolute difference of the two shifted slices at (b, e) is the gap between positions e and e + 1. -/
theorem gap_at (A : A3) (b : Fin 64) (e : Fin 99999) :
    Read.val_main_v3 (F := Ideal) A (ix2 b e) = EdgeLoss.gap A b e.val (by have := e.isLt; omega) := by
  have h1 : Read.idx_main_call0_v0 (ix2 b e) = ix2 b (⟨e.val + 1, by have := e.isLt; omega⟩ : Fin 100000) :=
    funext fun a => Fin.ext (by match a with | ⟨0, _⟩ => rfl | ⟨1, _⟩ => show 1 + e.val = e.val + 1; omega)
  have h0 : Read.idx_main_call0_v1 (ix2 b e) = ix2 b (⟨e.val, by have := e.isLt; omega⟩ : Fin 100000) :=
    funext fun a => Fin.ext (by match a with | ⟨0, _⟩ => rfl | ⟨1, _⟩ => rfl)
  rw [Read.val_main_v3_apply, Read.val_main_v2_apply, Read.val_main_call0_v0_apply, Read.val_main_call0_v1_apply,
    h1, h0, ych_at, ych_at]
  rfl

/-- The second array's stages are the first's: the two arrays go through the same operations. -/
theorem joined_same (A : A3) : Read.val_main_v17 (F := Ideal) A = Read.val_main_v8 (F := Ideal) A := rfl

/-! ## The padding value -/

/-- The integer zero converted to a float is the extended real zero. -/
theorem padValue_front : Read.val_main_call1_v0 (F := Ideal) (Shape.Idx.first h_S_) = (0 : EReal) := by
  rw [Read.val_main_call1_v0_apply, Read.val_main_c_apply]
  show ((((0#32 : BitVec 32).toInt : ℤ) : ℝ) : EReal) = 0
  simp

theorem padValue_back : Read.val_main_call2_v0 (F := Ideal) (Shape.Idx.first h_S_) = (0 : EReal) := by
  rw [Read.val_main_call2_v0_apply, Read.val_main_c_0_apply]
  show ((((0#32 : BitVec 32).toInt : ℤ) : ℝ) : EReal) = 0
  simp

/-! ## The gap before and the gap after each position -/

/-- The gaps with one zero in front: position n holds the gap before it, position 0 holds zero. -/
theorem top_at (A : A3) (b : Fin 64) (n : Fin 100000) :
    Read.val_main_v4 (F := Ideal) A (ix2 b n) = EdgeLoss.top A b n := by
  unfold Read.val_main_v4 EdgeLoss.top
  by_cases h : 1 ≤ n.val
  · rw [dif_pos h]
    have hn := n.isLt
    rw [pad_apply_of_inside (s := S64x99999) (t := S64x100000) ![0, 1] ![0, 0] ![0, 0] _ _
      pads_S64x99999_S64x100000_000_100 h_S_ (ix2 b n) (ix2 b (⟨n.val - 1, by omega⟩ : Fin 99999))
      (fun a => by
        match a with
        | ⟨0, _⟩ => show b.val = 0 + b.val * (0 + 1); omega
        | ⟨1, _⟩ => show n.val = 1 + (n.val - 1) * (0 + 1); omega)]
    exact gap_at A b ⟨n.val - 1, by omega⟩
  · rw [dif_neg h]
    rw [pad_apply_of_not_inside (s := S64x99999) (t := S64x100000) ![0, 1] ![0, 0] ![0, 0] _ _
      pads_S64x99999_S64x100000_000_100 h_S_ (ix2 b n) (1 : Fin 2)
      (fun hc => h hc.1)]
    exact padValue_front

/-- The gaps with one zero behind: position n holds the gap after it, the last position holds zero. -/
theorem bot_at (A : A3) (b : Fin 64) (n : Fin 100000) :
    Read.val_main_v5 (F := Ideal) A (ix2 b n) = EdgeLoss.bot A b n := by
  unfold Read.val_main_v5 EdgeLoss.bot
  by_cases h : n.val + 1 < 100000
  · rw [dif_pos h]
    rw [pad_apply_of_inside (s := S64x99999) (t := S64x100000) ![0, 0] ![0, 1] ![0, 0] _ _
      pads_S64x99999_S64x100000_000_010 h_S_ (ix2 b n) (ix2 b (⟨n.val, by omega⟩ : Fin 99999))
      (fun a => by
        match a with
        | ⟨0, _⟩ => show b.val = 0 + b.val * (0 + 1); omega
        | ⟨1, _⟩ => show n.val = 0 + n.val * (0 + 1); omega)]
    exact gap_at A b ⟨n.val, by omega⟩
  · rw [dif_neg h]
    rw [pad_apply_of_not_inside (s := S64x99999) (t := S64x100000) ![0, 0] ![0, 1] ![0, 0] _ _
      pads_S64x99999_S64x100000_000_010 h_S_ (ix2 b n) (1 : Fin 2)
      (fun hc => h (by have h3 : (n.val - 0) / (0 + 1) < 99999 := hc.2.2; omega))]
    exact padValue_back

/-! ## The two gaps joined as two channels -/

/-- Channel 0 of the joined array is the gap before the position. -/
theorem joined_at_zero (A : A3) (b : Fin 64) (n : Fin 100000) :
    Read.val_main_v8 (F := Ideal) A (ix3 b n (0 : Fin 2)) = EdgeLoss.top A b n := by
  unfold Read.val_main_v8
  rw [concatenate_pair_apply_left (t := S64x100000x2) (s₁ := S64x100000x1) (s₂ := S64x100000x1) 2 _ _
    concatenates_S64x100000x1_S64x100000x1_S64x100000x2_d2 (ix3 b n (0 : Fin 2)) rfl (ix3 b n (0 : Fin 1))
    (fun c => by match c with | ⟨0, _⟩ => rfl | ⟨1, _⟩ => rfl | ⟨2, _⟩ => rfl)]
  rw [Read.val_main_v6_apply]
  have e : Read.idx_main_v6 (ix3 b n (0 : Fin 1)) = ix2 b n :=
    funext fun a => Fin.ext (by match a with | ⟨0, _⟩ => rfl | ⟨1, _⟩ => rfl)
  rw [e, top_at]

/-- Channel 1 of the joined array is the gap after the position. -/
theorem joined_at_one (A : A3) (b : Fin 64) (n : Fin 100000) :
    Read.val_main_v8 (F := Ideal) A (ix3 b n (1 : Fin 2)) = EdgeLoss.bot A b n := by
  unfold Read.val_main_v8
  rw [concatenate_pair_apply_right (t := S64x100000x2) (s₁ := S64x100000x1) (s₂ := S64x100000x1) 2 _ _
    concatenates_S64x100000x1_S64x100000x1_S64x100000x2_d2 (ix3 b n (1 : Fin 2)) rfl rfl (ix3 b n (0 : Fin 1))
    (fun c hc => by
      match c with
      | ⟨0, _⟩ => rfl
      | ⟨1, _⟩ => rfl
      | ⟨2, _⟩ => exact absurd rfl hc)
    rfl]
  rw [Read.val_main_v7_apply]
  have e : Read.idx_main_v7 (ix3 b n (0 : Fin 1)) = ix2 b n :=
    funext fun a => Fin.ext (by match a with | ⟨0, _⟩ => rfl | ⟨1, _⟩ => rfl)
  rw [e, bot_at]

/-! ## The edge weights at a position, and the column sums -/

/-- The absolute difference of the two joined arrays, summed over the two channels, at (b, n): the weight of the
    edge before the position plus the weight of the edge after it. -/
theorem weights_at (P C : A3) (b : Fin 64) (n : Fin 100000) :
    Read.val_main_v21 (F := Ideal) P C (ix2 b n)
      = 0 + (EdgeLoss.mag (EdgeLoss.top C b n - EdgeLoss.top P b n)
            + EdgeLoss.mag (EdgeLoss.bot C b n - EdgeLoss.bot P b n)) := by
  have e0 : Read.idx_main_v21 (ix2 b n) (0 : Fin 2) = ix3 b n (0 : Fin 2) :=
    funext fun a => Fin.ext (by match a with | ⟨0, _⟩ => rfl | ⟨1, _⟩ => rfl | ⟨2, _⟩ => rfl)
  have e1 : Read.idx_main_v21 (ix2 b n) (1 : Fin 2) = ix3 b n (1 : Fin 2) :=
    funext fun a => Fin.ext (by match a with | ⟨0, _⟩ => rfl | ⟨1, _⟩ => rfl | ⟨2, _⟩ => rfl)
  rw [Read.val_main_v21_apply, Fin.sum_univ_two, e0, e1, Read.val_main_cst_3_apply,
    Read.val_main_v19_apply, Read.val_main_v19_apply, Read.val_main_v18_apply, Read.val_main_v18_apply,
    joined_same, joined_at_zero, joined_at_zero, joined_at_one, joined_at_one]
  show Ideal.ofBits .f32 0x00000000#32 + _ = _
  rw [Ideal.ofBits_zero_f32]
  rfl

/-- The labels summed over the 64 rows and laid along every row, at (b, n): the column sum of column n. -/
theorem colSum_at (L : A2) (b : Fin 64) (n : Fin 100000) :
    Read.val_main_v23 (F := Ideal) L (ix2 b n) = EdgeLoss.colAll L n := by
  rw [Read.val_main_v23_apply, Read.val_main_v22_apply, Read.val_main_v20_apply, Read.val_main_cst_apply]
  unfold EdgeLoss.colAll
  show Ideal.ofBits .f32 0x00000000#32 + _ = _
  rw [Ideal.ofBits_zero_f32]
  refine congrArg (0 + ·) (Finset.sum_congr rfl fun k _ => ?_)
  exact congrArg L (funext fun a => Fin.ext (by match a with | ⟨0, _⟩ => rfl | ⟨1, _⟩ => rfl))

/-! ## The row scores, the total, and the result -/

/-- Row b's score is the position-by-position formula. -/
theorem per_row (x0 x1 : A3) (x2 : A2) (b : Fin 64) :
    Read.val_main_v25 (F := Ideal) x0 x1 x2 (ix1 b) = EdgeLoss.rowByPos x0 x1 x2 b := by
  rw [Read.val_main_v25_apply, Read.val_main_cst_4_apply]
  unfold EdgeLoss.rowByPos
  show Ideal.ofBits .f32 0x00000000#32 + _ = _
  rw [Ideal.ofBits_zero_f32]
  refine congrArg (0 + ·) (Finset.sum_congr rfl fun n _ => ?_)
  have e : Read.idx_main_v25 (ix1 b) n = ix2 b n :=
    funext fun a => Fin.ext (by match a with | ⟨0, _⟩ => rfl | ⟨1, _⟩ => rfl)
  rw [e, Read.val_main_v24_apply, weights_at, colSum_at]
  rfl

/-- The total of the labels. -/
theorem total (x2 : A2) : Read.val_main_v26 (F := Ideal) x2 ix0 = EdgeLoss.totAll x2 := by
  rw [Read.val_main_v26_apply, Read.val_main_cst_5_apply]
  unfold EdgeLoss.totAll
  show Ideal.ofBits .f32 0x00000000#32 + _ = _
  rw [Ideal.ofBits_zero_f32]

/-- The reference's result is the common tail of the row scores and the total. -/
theorem result_eq (x0 x1 : A3) (x2 : A2) :
    Read.val_main_v30 (F := Ideal) x0 x1 x2
      = EdgeLoss.tail (fun i => EdgeLoss.rowByPos x0 x1 x2 (i 0)) (fun _ => EdgeLoss.totAll x2) := by
  have h25 : Read.val_main_v25 (F := Ideal) x0 x1 x2 = fun i => EdgeLoss.rowByPos x0 x1 x2 (i 0) := by
    funext i
    rw [eq_ix1 i]
    exact per_row x0 x1 x2 (i 0)
  have h26 : Read.val_main_v26 (F := Ideal) x2 = fun _ => EdgeLoss.totAll x2 := by
    funext i
    rw [show i = ix0 from funext fun d => d.elim0]
    exact total x2
  unfold Read.val_main_v30 Read.val_main_v29 Read.val_main_v28 Read.val_main_v27
  rw [h25, h26]
  rfl

end Cert.ReferenceIdeal.RefValue

end
-- ==== Proof.Finite.lean ====
/-
  Finite inputs. The precondition compares the absolute value of every element of the three input arrays with
  +infinity and takes the conjunction of all the comparisons. If it holds, no element is +infinity or -infinity:
  over the extended reals |x| = max x (-x), and max x (-x) < +infinity fails exactly at the two infinities.
-/
import proofs.«140459_j63702954934362_2_alg».proof.Pre_finite_inputs
import proofs.«140459_j63702954934362_2_alg».proof.Proof.Gen.Pre_finite_inputs
import proofs.«140459_j63702954934362_2_alg».proof.Proof.Spec
import Idealize.ShloMosaic.Lib.ReduceAll
import Idealize.ShloMosaic.Lib.IdealHost
import Idealize.ShloMosaic.Lib.ValueIdx
import Idealize.ShloMosaic.PureOps.Ideal.Laws

noncomputable section

namespace Cert.Finite

open Idealize.ShloMosaic Idealize.ShloMosaic.ValueIdx

/-- The f32 word with all exponent bits set and no fraction bit is +infinity. -/
theorem ofBits_inf_f32 : Ideal.ofBits .f32 0x7F800000#32 = (⊤ : EReal) := by
  simp [Ideal.ofBits, Ideal.ieee]

/-- An extended real whose absolute value is below +infinity is neither infinity. -/
theorem finite_of_abs_lt_top (x : EReal) (h : max x (-x) < (⊤ : EReal)) : x ≠ ⊤ ∧ x ≠ ⊥ := by
  induction x using EReal.rec with
  | bot => simp at h
  | coe r => exact ⟨EReal.coe_ne_top r, EReal.coe_ne_bot r⟩
  | top => simp at h

/-- One comparison of the precondition, read at an element: the bit 1 says the element is finite. -/
theorem finite_of_cmp {s : Shape} (a : s.Idx → EReal) (c : Cert.Pre_finite_inputs.S_.Idx → EReal)
    (hc : c ix0 = (⊤ : EReal)) (hb : Cert.Pre_finite_inputs.S_.BroadcastsInDim s (![] : Fin 0 → Fin s.rank)) (i : s.Idx)
    (h : cmpf (F := Ideal) (φ := .f32) .olt (Host.absf (F := Ideal) (φ := .f32) a)
          (broadcastInDim s ![] hb c) i = 1#1) : a i ≠ ⊤ ∧ a i ≠ ⊥ := by
  apply finite_of_abs_lt_top
  rw [cmpf_apply, broadcastInDim_scalar_apply, hc] at h
  change Ideal.cmp .olt (max (a i) (-(a i))) ⊤ = 1#1 at h
  by_contra hn
  simp [Ideal.cmp, hn] at h

instance : Subsingleton Cert.Pre_finite_inputs.S_.Idx := ⟨fun a b => funext fun d => d.elim0⟩

/-- Under the precondition every element of the three inputs is a real number. -/
theorem finite_of_pre [Cert.Pre_finite_inputs.Facts] (a0 a1 : EdgeLoss.T3.Idx → EReal) (a2 : EdgeLoss.T2.Idx → EReal)
    (h : Cert.Pre_finite_inputs.fn (F := Ideal) a0 a1 a2 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ix0
  dsimp only [Cert.Pre_finite_inputs.fn] at h0
  obtain ⟨h01, h2⟩ := IntOp.andi_eq_one.1 h0
  obtain ⟨h0', h1⟩ := IntOp.andi_eq_one.1 h01
  have hc : (constant (F := Ideal) Cert.Pre_finite_inputs.S_ .f32 0x7F800000#32) ix0 = (⊤ : EReal) := by
    rw [constant_apply]; exact ofBits_inf_f32
  refine ⟨fun i => ?_, fun i => ?_, fun i => ?_⟩
  · exact finite_of_cmp a0 _ hc _ i (Host.reduce_andi_all _ _ _ _ _ h0' i)
  · exact finite_of_cmp a1 _ hc _ i (Host.reduce_andi_all _ _ _ _ _ h1 i)
  · exact finite_of_cmp a2 _ hc _ i (Host.reduce_andi_all _ _ _ _ _ h2 i)

end Cert.Finite

end
-- ==== Proof.Algebra.lean ====
/-
  The algebra behind the two arrangements of the neighbour-difference loss.

  Three facts about the formulas of the specification:
  * the column sum taken eight rows at a time is the column sum over all 64 rows (a regrouping of a finite sum);
  * the total of the column sums is the total of the array (a double sum, exchanged);
  * a row's score, edge by edge in chunks, is its score position by position: every edge is counted once from
    each of its two ends. This one moves a factor across a sum and therefore needs every entry to be finite.
-/
import proofs.«140459_j63702954934362_2_alg».proof.Proof.Spec
import Mathlib.Algebra.BigOperators.Fin
import Mathlib.Data.Fintype.BigOperators
import Mathlib.Data.EReal.Operations

noncomputable section

namespace EdgeLoss

open Idealize.ShloMosaic Idealize.ShloMosaic.ValueIdx

/-! ## Column sums -/

/-- A sum over 64 rows is the sum over 8 blocks of the sums over the 8 rows of each block. -/
theorem sum_fin64 {M : Type*} [AddCommMonoid M] (f : Fin 64 → M) :
    ∑ k : Fin 64, f k
      = ∑ t : Fin 8, ∑ r : Fin 8, f ⟨8 * t.val + r.val, by have := t.isLt; have := r.isLt; omega⟩ := by
  have e : ∑ k : Fin 64, f k = ∑ p : Fin 8 × Fin 8, f ((finProdFinEquiv : Fin 8 × Fin 8 ≃ Fin 64) p) :=
    (Equiv.sum_comp (finProdFinEquiv : Fin 8 × Fin 8 ≃ Fin 64) f).symm
  rw [e, Fintype.sum_prod_type]
  refine Finset.sum_congr rfl fun t _ => Finset.sum_congr rfl fun r _ => ?_
  congr 1
  apply Fin.ext
  show r.val + 8 * t.val = 8 * t.val + r.val
  omega

theorem colBlocks_eq_colAll (L : T2.Idx → EReal) (n : Fin 100000) : colBlocks L n = colAll L n := by
  simp only [colBlocks, colChain, colAll]
  rw [sum_fin64 (fun k => L (ix2 k n)), Fin.sum_univ_eight]
  simp only [zero_add, add_assoc]
  rfl

/-! ## The total -/

theorem totCols_eq_totAll (L : T2.Idx → EReal) : totCols (colAll L) = totAll L := by
  simp only [totCols, totAll, colAll, zero_add]
  rw [sum_idx2, Finset.sum_comm]

/-! ## Finite entries are real numbers -/

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

theorem mag_zero : mag (0 : EReal) = 0 := by
  simp only [mag, neg_zero, max_self]

/-- The absolute value of a real number is a real number. -/
theorem mag_coe (r : ℝ) : mag (r : EReal) = ((max r (-r) : ℝ) : EReal) := by
  rw [EReal.coe_strictMono.monotone.map_max, EReal.coe_neg]
  rfl

/-! ## Row scores -/

/-- The 99999 edges, cut into nine chunks of 10000 and one of 9999. -/
theorem sum_range_chunks {M : Type*} [AddCommMonoid M] (E : ℕ → M) :
    ∑ i ∈ Finset.range 99999, E i
      = ∑ j ∈ Finset.range 10000, E j + ∑ j ∈ Finset.range 10000, E (10000 + j)
        + ∑ j ∈ Finset.range 10000, E (20000 + j) + ∑ j ∈ Finset.range 10000, E (30000 + j)
        + ∑ j ∈ Finset.range 10000, E (40000 + j) + ∑ j ∈ Finset.range 10000, E (50000 + j)
        + ∑ j ∈ Finset.range 10000, E (60000 + j) + ∑ j ∈ Finset.range 10000, E (70000 + j)
        + ∑ j ∈ Finset.range 10000, E (80000 + j) + ∑ j ∈ Finset.range 9999, E (90000 + j) := by
  have h : (99999 : ℕ)
      = 10000 + 10000 + 10000 + 10000 + 10000 + 10000 + 10000 + 10000 + 10000 + 9999 := rfl
  rw [h]
  simp only [Finset.sum_range_add]

/-- The chunked row score is the sum over all 99999 edges. -/
theorem rowChunks_eq_sum_range (P C : T3.Idx → EReal) (cl : Fin 100000 → EReal) (b : Fin 64) (E : ℕ → EReal)
    (hE : ∀ (i : ℕ) (h : i + 1 < 100000), edgeTerm P C cl b i h = E i) :
    rowChunks P C cl b = ∑ i ∈ Finset.range 99999, E i := by
  have hch : ∀ (c : ℕ) (hc : c < 9),
      chunkSum P C cl b c hc = ∑ j ∈ Finset.range 10000, E (10000 * c + j) := by
    intro c hc
    unfold chunkSum
    simp only [hE]
    exact Fin.sum_univ_eq_sum_range (fun j => E (10000 * c + j)) 10000
  have hl : lastSum P C cl b = ∑ j ∈ Finset.range 9999, E (90000 + j) := by
    unfold lastSum
    simp only [hE]
    exact Fin.sum_univ_eq_sum_range (fun j => E (90000 + j)) 9999
  simp only [rowChunks, rowChain, hch, hl]
  rw [sum_range_chunks E]
  simp only [Nat.reduceMul, zero_add]

/-- Every edge counted once from each end: with `t` the edge before a position (none before the first) and
    `x` the edge after it (none after the last), the sum over edges of `x i * (c i + c (i + 1))` is the sum
    over positions of `(t n + x n) * c n`. All entries are real numbers, so the factor moves across the sums. -/
theorem sum_edges_eq_sum_positions (N : ℕ) (x t c : ℕ → ℝ) (ht0 : t 0 = 0) (hts : ∀ n, t (n + 1) = x n)
    (hxN : x N = 0) :
    ∑ i ∈ Finset.range N, (x i : EReal) * ((c i : EReal) + (c (i + 1) : EReal))
      = ∑ n ∈ Finset.range (N + 1), ((t n : EReal) + (x n : EReal)) * (c n : EReal) := by
  have h1 : ∀ n, ((t n : EReal) + (x n : EReal)) * (c n : EReal)
      = (t n : EReal) * (c n : EReal) + (x n : EReal) * (c n : EReal) := by
    intro n
    rw [← EReal.coe_add, ← EReal.coe_mul, ← EReal.coe_mul, ← EReal.coe_mul, ← EReal.coe_add, add_mul]
  have h2 : ∀ i, (x i : EReal) * ((c i : EReal) + (c (i + 1) : EReal))
      = (x i : EReal) * (c i : EReal) + (x i : EReal) * (c (i + 1) : EReal) := by
    intro i
    rw [← EReal.coe_add, ← EReal.coe_mul, ← EReal.coe_mul, ← EReal.coe_mul, ← EReal.coe_add, mul_add]
  simp only [h1, h2, Finset.sum_add_distrib]
  rw [Finset.sum_range_succ' (fun n => (t n : EReal) * (c n : EReal)) N,
    Finset.sum_range_succ (fun n => (x n : EReal) * (c n : EReal)) N]
  simp only [ht0, hts, hxN, EReal.coe_zero, zero_mul, add_zero]
  exact add_comm _ _

theorem rowChunks_eq_rowByPos (P C : T3.Idx → EReal) (L : T2.Idx → EReal)
    (hP : ∀ i, P i ≠ ⊤ ∧ P i ≠ ⊥) (hC : ∀ i, C i ≠ ⊤ ∧ C i ≠ ⊥) (hL : ∀ i, L i ≠ ⊤ ∧ L i ≠ ⊥) (b : Fin 64) :
    rowChunks P C (colAll L) b = rowByPos P C L b := by
  -- every edge weight and every column sum is a real number
  have hx : ∀ (i : ℕ) (h : i + 1 < 100000), ∃ r : ℝ, edge P C b i h = (r : EReal) := by
    lift P to T3.Idx → ℝ using hP
    lift C to T3.Idx → ℝ using hC
    intro i h
    simp only [edge, gap, ych, ← EReal.coe_sub, mag_coe]
    exact ⟨_, rfl⟩
  have hc : ∀ n : Fin 100000, ∃ r : ℝ, colAll L n = (r : EReal) := by
    lift L to T2.Idx → ℝ using hL
    intro n
    exact ⟨∑ k : Fin 64, L (ix2 k n), by simp only [colAll, zero_add, coe_finset_sum]⟩
  choose xr hxr using hx
  choose cr hcr using hc
  -- the same numbers, indexed by the natural numbers (zero outside the range)
  obtain ⟨x, hx0, hx⟩ : ∃ x : ℕ → ℝ, x 99999 = 0 ∧
      ∀ (i : ℕ) (h : i + 1 < 100000), edge P C b i h = (x i : EReal) :=
    ⟨fun i => if h : i + 1 < 100000 then xr i h else 0, dif_neg (by omega),
      fun i h => by simp only [dif_pos h]; exact hxr i h⟩
  obtain ⟨c, hc⟩ : ∃ c : ℕ → ℝ, ∀ n : Fin 100000, colAll L n = (c n.val : EReal) :=
    ⟨fun n => if h : n < 100000 then cr ⟨n, h⟩ else 0,
      fun n => by simp only [dif_pos n.isLt]; exact hcr n⟩
  obtain ⟨t, ht0, hts⟩ : ∃ t : ℕ → ℝ, t 0 = 0 ∧ ∀ n, t (n + 1) = x n :=
    ⟨fun n => if n = 0 then 0 else x (n - 1), if_pos rfl,
      fun n => by simp only [Nat.succ_ne_zero, if_false, Nat.add_sub_cancel]⟩
  -- the chunked side
  have hE : ∀ (i : ℕ) (h : i + 1 < 100000),
      edgeTerm P C (colAll L) b i h = (x i : EReal) * ((c i : EReal) + (c (i + 1) : EReal)) := by
    intro i h
    unfold edgeTerm
    rw [hx i h, hc ⟨i, Nat.lt_of_succ_lt h⟩, hc ⟨i + 1, h⟩]
  rw [rowChunks_eq_sum_range P C (colAll L) b _ hE]
  -- the position-by-position side
  have hT : ∀ n : Fin 100000, mag (top C b n - top P b n) = (t n.val : EReal) := by
    rintro ⟨n, hn⟩
    cases n with
    | zero =>
      have h0 : ¬ (1 ≤ ((⟨0, hn⟩ : Fin 100000) : ℕ)) := by simp
      simp only [top, dif_neg h0, sub_zero, mag_zero, ht0, EReal.coe_zero]
    | succ m =>
      have h1 : 1 ≤ ((⟨m + 1, hn⟩ : Fin 100000) : ℕ) := Nat.le_add_left 1 m
      simp only [top, dif_pos h1]
      refine (hx (m + 1 - 1) (by omega)).trans ?_
      rw [hts, Nat.add_sub_cancel]
  have hB : ∀ n : Fin 100000, mag (bot C b n - bot P b n) = (x n.val : EReal) := by
    intro n
    by_cases h : n.val + 1 < 100000
    · simp only [bot, dif_pos h]
      exact hx n.val h
    · have hn : n.val = 99999 := by have := n.isLt; omega
      simp only [bot, dif_neg h, sub_zero, mag_zero]
      rw [hn, hx0, EReal.coe_zero]
  simp only [rowByPos, hT, hB, hc, zero_add]
  rw [Fin.sum_univ_eq_sum_range (fun n => ((t n : EReal) + (x n : EReal)) * (c n : EReal)) 100000]
  exact sum_edges_eq_sum_positions 99999 x t c ht0 hts hx0

end EdgeLoss

end
-- ==== Proof.lean ====
/-
  The neighbour-difference loss: a two-region kernel against its plain reference, equal over the extended reals.

  Both programs take `pred`, `coords` : [64, 100000, 2] and `labels` : [64, 100000], read only the y channel of the
  first two, and return one number: the mean over the 64 rows of (row score / total of `labels`), where a row's score
  pairs each edge weight `| |Δy coords| - |Δy pred| |` between neighbouring positions with the column sums of `labels`
  at the edge's two ends.

  The kernel computes the column sums in a first region, eight rows at a time, and in a second region scores each
  row edge by edge in ten chunks, each edge times the SUM of its two column sums (`EdgeLoss.rowChunks`); the reference
  pads the gaps with a zero in front and behind, adds each position's two incident edge weights and multiplies by that
  position's column sum (`EdgeLoss.rowByPos`). The two arrangements agree because a product distributes over the sum
  of the two column sums — which needs every entry finite, and that is the precondition. The total of `labels` is the
  same sum in another order, and the tail (division, mean) is the same on both sides.

  The frames of the two kernel programs are the generated ones; the reference's is its generated run with the result
  dropped; the idealization rewrote nothing.
-/
import proofs.«140459_j63702954934362_2_alg».proof.Defs
import proofs.«140459_j63702954934362_2_alg».proof.Proof.Gen.Kernel
import proofs.«140459_j63702954934362_2_alg».proof.Proof.Gen.Kernel.Frame
import proofs.«140459_j63702954934362_2_alg».proof.Proof.Gen.KernelIdeal
import proofs.«140459_j63702954934362_2_alg».proof.Proof.Gen.KernelIdeal.Frame
import proofs.«140459_j63702954934362_2_alg».proof.Proof.Gen.ReferenceIdeal
import proofs.«140459_j63702954934362_2_alg».proof.Proof.Gen.ReferenceIdeal.Run
import proofs.«140459_j63702954934362_2_alg».proof.Proof.Gen.ReferenceIdeal.Read
import proofs.«140459_j63702954934362_2_alg».proof.Proof.Gen.Pre_finite_inputs
import proofs.«140459_j63702954934362_2_alg».proof.Proof.KValue
import proofs.«140459_j63702954934362_2_alg».proof.Proof.RefValue
import proofs.«140459_j63702954934362_2_alg».proof.Proof.Finite
import proofs.«140459_j63702954934362_2_alg».proof.Proof.Algebra
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With every entry finite, the chunked row scores over the blockwise column sums are the position-by-position row
    scores, and the total of the column sums is the total of `labels`: the two programs' tails meet the same values. -/
theorem tails_eq (P C : EdgeLoss.T3.Idx → EReal) (L : EdgeLoss.T2.Idx → EReal)
    (hP : ∀ i, P i ≠ ⊤ ∧ P i ≠ ⊥) (hC : ∀ i, C i ≠ ⊤ ∧ C i ≠ ⊥) (hL : ∀ i, L i ≠ ⊤ ∧ L i ≠ ⊥) :
    EdgeLoss.tail (fun i => EdgeLoss.rowChunks P C (EdgeLoss.colBlocks L) (i 0)) (fun _ => EdgeLoss.totCols (EdgeLoss.colBlocks L))
      = EdgeLoss.tail (fun i => EdgeLoss.rowByPos P C L (i 0)) (fun _ => EdgeLoss.totAll L) := by
  have hcol : EdgeLoss.colBlocks L = EdgeLoss.colAll L := funext (EdgeLoss.colBlocks_eq_colAll L)
  rw [hcol, EdgeLoss.totCols_eq_totAll]
  exact congrArg (fun v => EdgeLoss.tail v (fun _ => EdgeLoss.totAll L))
    (funext fun i => EdgeLoss.rowChunks_eq_rowByPos P C L hP hC hL (i 0))

theorem algebraic : Cert.algebraic_KernelIdeal_ReferenceIdeal := by
  intro m ρ m' ρ' hpre hagree
  refine ⟨fun c => EdgeLoss.tail
      (fun i => EdgeLoss.rowByPos (Cert.KernelIdeal.KValue.pred m c) (Cert.KernelIdeal.KValue.coords m c)
        (Cert.KernelIdeal.KValue.labels m c) (i 0))
      (fun _ => EdgeLoss.totAll (Cert.KernelIdeal.KValue.labels m c)), ?_, ?_⟩
  · refine (θ_run Cert.KernelIdeal.defs _ _).mono (fun r h c => ⟨(h c).1.trans ?_, (h c).2⟩)
      (Cert.KernelIdeal.KValue.run m ρ)
    obtain ⟨hP, hC, hL⟩ := Cert.Finite.finite_of_pre _ _ _ (hpre c)
    exact tails_eq _ _ _ hP hC hL
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
